-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S16384x4096 : S_.BroadcastsInDim S16384x4096 (![] : Fin 0 → Fin S16384x4096.rank)
  reducesTo_S16384x4096_S_d0_1 : S16384x4096.ReducesTo [0, 1] S_
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S8192x4096 .f32) (main_arg1 : FVec F S16384x4096 .f32) (main_arg2 : FVec F S16384 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S16384x4096 .f32 := Host.absf main_arg1
  let main_cst_0 : FVec F S_ .f32 := constant S_ .f32 0x7F800000#32
  let main_v5 : FVec F S16384x4096 .f32 := broadcastInDim S16384x4096 ![] bcast_S_S16384x4096 main_cst_0
  let main_v6 : IVec S16384x4096 1 := cmpf .olt main_v4 main_v5
  let main_c_1 : IVec S_ 1 := constantI S_ 1 1#1
  let main_v7 : IVec S_ 1 := (fun x v => Host.reduce IntOp.andi x v reducesTo_S16384x4096_S_d0_1 h_S_) main_v6 main_c_1
  let main_v8 : IVec S_ 1 := andi main_v3 main_v7
  let main_v9 : FVec F S16384 .f32 := Host.absf main_arg2
  let main_cst_2 : FVec F S_ .f32 := constant S_ .f32 0x7F800000#32
  let main_v10 : FVec F S16384 .f32 := broadcastInDim S16384 ![] bcast_S_S16384 main_cst_2
  let main_v11 : IVec S16384 1 := cmpf .olt main_v9 main_v10
  let main_c_3 : IVec S_ 1 := constantI S_ 1 1#1
  let main_v12 : IVec S_ 1 := (fun x v => Host.reduce IntOp.andi x v reducesTo_S16384_S_d0 h_S_) main_v11 main_c_3
  let main_v13 : IVec S_ 1 := andi main_v8 main_v12
  main_v13
-- ==== Kernel.lean ====
abbrev S8192x4096 : Shape := ⟨2, ![8192, 4096]⟩
abbrev S16384x4096 : Shape := ⟨2, ![16384, 4096]⟩
abbrev S16384 : Shape := ⟨1, ![16384]⟩
abbrev S512x4096 : Shape := ⟨2, ![512, 4096]⟩
abbrev S1x16384 : Shape := ⟨2, ![1, 16384]⟩
abbrev S8192x16384 : Shape := ⟨2, ![8192, 16384]⟩
abbrev S1024x1024 : Shape := ⟨2, ![1024, 1024]⟩
abbrev S1x1024 : Shape := ⟨2, ![1, 1024]⟩

abbrev nBuf : Space → Nat
  | .hbm => 7
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S16384x4096, .bf16⟩
  | .hbm, ⟨4, _⟩ => ⟨S8192x4096, .bf16⟩
  | .hbm, ⟨5, _⟩ => ⟨S1x16384, .f32⟩
  | .hbm, ⟨6, _⟩ => ⟨S8192x16384, .f32⟩
  | .local _ .vmem, ⟨0, _⟩ => ⟨S512x4096, .f32⟩
  | .local _ .vmem, ⟨1, _⟩ => ⟨S512x4096, .f32⟩
  | .local _ .vmem, ⟨2, _⟩ => ⟨S512x4096, .bf16⟩
  | .local _ .vmem, ⟨3, _⟩ => ⟨S512x4096, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨3, ![8, 16, 4], ![false, false, false]⟩

def k1_cond2 (i : grid1.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  shapeCasts_S16384_S1x16384 : S16384.ShapeCasts S1x16384
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .f32 = 32 ∨ (Rect.block (s := S16384x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S16384x4096.size a
  hwx0_1 : ∀ i : grid0.Coords, EltTy.bits .bf16 = 32 ∨ (Rect.block (s := S16384x4096) S512x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S8192x4096.size a
  hwx1_0 : ∀ i : grid1.Coords, EltTy.bits .bf16 = 32 ∨ (Rect.block (s := S8192x4096) S1024x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S16384x4096.size a
  hwx1_1 : ∀ i : grid1.Coords, EltTy.bits .bf16 = 32 ∨ (Rect.block (s := S16384x4096) S1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x16384.size a
  hwx1_2 : ∀ i : grid1.Coords, EltTy.bits .f32 = 32 ∨ (Rect.block (s := S1x16384) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S8192x16384.size a
  hwx1_3 : ∀ i : grid1.Coords, EltTy.bits .f32 = 32 ∨ (Rect.block (s := S8192x16384) S1024x1024.size (cc1_transform_3 i) (hinb1_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S16384x4096 : Shape := ⟨2, ![16384, 4096]⟩
abbrev S16384 : Shape := ⟨1, ![16384]⟩
abbrev S_ : Shape := ⟨0, ![]⟩
abbrev S8192x16384 : Shape := ⟨2, ![8192, 16384]⟩
abbrev S1x16384 : Shape := ⟨2, ![1, 16384]⟩

abbrev nBuf : Space → Nat
  | .hbm => 24
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S16384x4096, .f32⟩
  | .hbm, ⟨2, _⟩ => ⟨S16384, .f32⟩
  | .hbm, ⟨3, _⟩ => ⟨S_, .f32⟩
  | .hbm, ⟨4, _⟩ => ⟨S16384x4096, .f32⟩
  | .hbm, ⟨5, _⟩ => ⟨S16384x4096, .i1⟩
  | .hbm, ⟨6, _⟩ => ⟨S_, .f32⟩
  | .hbm, ⟨7, _⟩ => ⟨S16384x4096, .f32⟩
  | .hbm, ⟨8, _⟩ => ⟨S16384x4096, .i1⟩
  | .hbm, ⟨9, _⟩ => ⟨S_, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S8192x16384, .f32⟩
  | .hbm, ⟨21, _⟩ => ⟨S1x16384, .f32⟩
  | .hbm, ⟨22, _⟩ => ⟨S8192x16384, .f32⟩
  | .hbm, ⟨23, _⟩ => ⟨S8192x16384, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_cst_2 : Ref sig .tc := ⟨.hbm, 10, rfl⟩
abbrev main_call0_v0 : Ref sig .tc := ⟨.hbm, 11, rfl⟩
abbrev main_call0_v1 : Ref sig .tc := ⟨.hbm, 12, rfl⟩
abbrev main_v4 : Ref sig .tc := ⟨.hbm, 13, rfl⟩
abbrev main_cst_3 : Ref sig .tc := ⟨.hbm, 14, rfl⟩
abbrev main_call1_v0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]

class Facts₀ : Prop where
  bcast_S_S16384x4096 : S_.BroadcastsInDim S16384x4096 (![] : Fin 0 → Fin S16384x4096.rank)
  bcast_S16384_S1x16384_1 : S16384.BroadcastsInDim S1x16384 (![1] : Fin 1 → Fin S1x16384.rank)
  bcast_S1x16384_S8192x16384_0_1 : S1x16384.BroadcastsInDim S8192x16384 (![0, 1] : Fin 2 → Fin S8192x16384.rank)
  dot_S8192x4096_S16384x4096_S8192x16384_1_1_0_0_n_n_wf : DotDims.WF S8192x4096 S16384x4096 S8192x16384 [1] [1] [0] [0] [] []

variable [Facts₀]

def dot_S8192x4096_S16384x4096_S8192x16384_1_1_0_0_n_n : DotDims S8192x4096 S16384x4096 S8192x16384 where
  lhsContracting := [1]
  rhsContracting := [1]
  lhsNonContracting := [0]
  rhsNonContracting := [0]
  lhsBatch := []
  rhsBatch := []
  wf := dot_S8192x4096_S16384x4096_S8192x16384_1_1_0_0_n_n_wf

class Facts : Prop extends Facts₀ where

variable [Facts]
-- ==== Proof.KReg0.lean ====
/-
  The first launch: the weight matrix is swept in 32 blocks of 512 rows; each block is replaced, entry by
  entry, by its ternary image (two comparisons against the threshold words and two selections) and written
  to the block of the same rows of the quantised matrix.  Here: what the output block holds after the body
  (one store covering the whole block), the body's triple, the launch's proof data at any contents `V` of
  the buffers on entry, and the obligation at every grid point.  Nothing is kept between points.
-/
import proofs.«150503_j31207232372816_2_alg».proof.Proof.Gen.Kernel.Launch
import proofs.«150503_j31207232372816_2_alg».proof.Proof.Gen.Kernel.Skeleton
import proofs.«150503_j31207232372816_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block of rows at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole block, as a rectangle. -/
abbrev r0_0 : Rect S512x4096 := Rect.unit (s := S512x4096) ![0, 0] S512x4096.size inb_S512x4096_S512x4096_0_0

/-- The output block after the body: the one store, of the ternary image of the loaded rows. -/
def out0_1 (x0 : Vec F S512x4096 .f32) : Vec F S512x4096 .bf16 :=
  View.canon [⟨r0_0, k0_pay1 (View.ld x0 r0_0)⟩]

/-- That store covers the block. -/
theorem cover0_1 (p0 : Vec F S512x4096 .bf16) (y : S512x4096.Idx) :
    ∃ pc ∈ ([⟨r0_0, p0⟩] : List (View.Piece (Elt F) S512x4096 .bf16)), y ∈ pc.1.set :=
  View.cover_of_tiled [⟨r0_0, p0⟩] S512x4096.size (by rfl) y

set_option maxHeartbeats 1000000 in
/-- The body on whole staging buffers: the rows are left as they were, the output block ends at `out0_1` of them. -/
theorem sound_kernel0 (c : Dev nD) (E : Set ℕ) (i : grid0.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__quantize_kernel i arg1 harg1 arg2 harg2) K := by
  simp only [cc0__quantize_kernel_eq_skeleton]; unfold cc0__quantize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The launch's proof data on core `c`: the arrays as found; after the body the input buffer at its block of
    rows and the output buffer at the block's ternary image; nothing kept, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The obligation at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1a.lean ====
/-
  The second launch, shared definitions.  The grid is 8 × 16 × 4: block row i of the activations, block row j
  of the quantised weights, and the chunk k of 1024 input features, k running fastest.  A point's position t
  has k = t mod 4.  The body resets the accumulator where k = 0, adds the chunk's product at every point,
  and where k = 3 stores the accumulator plus the bias row into the output block (i, j); at the other points
  the output window is idle and is not written back.
-/
import proofs.«150503_j31207232372816_2_alg».proof.Proof.Gen.Kernel.Launch
import proofs.«150503_j31207232372816_2_alg».proof.Proof.Gen.Kernel.Skeleton
import proofs.«150503_j31207232372816_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not (the bias
    row is fetched only where k = 0, and its block index does not move in between). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, from the grid coordinates -/

/-- "k = 0": the accumulator is reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3": the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The staging buffers at a point, the accumulator -/

abbrev VO1_3 : View sig .tc .vmem S1024x1024 .f32 := (Memref.whole cc1_stg3_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole buffer of the launch's own, kept from point to point. -/
abbrev scM1_0 : Memref sig .tc .vmem S1024x1024 .f32 := Memref.whole cc1_scratch0
abbrev VS1_0 : View sig .tc .vmem S1024x1024 .f32 := scM1_0.view

/-- The buffers of the first launch that this one never touches, each at some contents. -/
def idleBufs (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- What the launch hands the body besides the windows: those buffers, the accumulator at some contents, and
    the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.Kernel.Hand

end
-- ==== Proof.KReg1A.lean ====
/-
  The second launch's body run whole in one of its three cases (which of the two conditions hold), on any whole
  staging buffers: the input blocks are left as they were, and what the stores leave in the accumulator (and,
  where k = 3, in the output block) is recorded as the list of pieces written, last first.
-/
import proofs.«150503_j31207232372816_2_alg».proof.Proof.KReg1a

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case k = 0: the accumulator, whatever it held, is reset and then holds the first chunk's product; the
    output block is not touched. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KReg1B.lean ====
/-
  The second launch's body run whole in one of its three cases (which of the two conditions hold), on any whole
  staging buffers: the input blocks are left as they were, and what the stores leave in the accumulator (and,
  where k = 3, in the output block) is recorded as the list of pieces written, last first.
-/
import proofs.«150503_j31207232372816_2_alg».proof.Proof.KReg1a

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case k = 1, 2: the accumulator, found at `xs0`, gains the chunk's product; the output block is not touched. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.Kernel.Hand

end
-- ==== Proof.KReg1C.lean ====
/-
  The second launch's body run whole in one of its three cases (which of the two conditions hold), on any whole
  staging buffers: the input blocks are left as they were, and what the stores leave in the accumulator (and,
  where k = 3, in the output block) is recorded as the list of pieces written, last first.
-/
import proofs.«150503_j31207232372816_2_alg».proof.Proof.KReg1a

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case k = 3: the accumulator, found at `xs0`, gains the last chunk's product, and the output block, whatever
    it held, is stored whole. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.Kernel.Hand

end
-- ==== Proof.KReg1.lean ====
/-
  The second launch: what the accumulator and the output block hold after each grid point, by recursion on
  the point's position (the case of the point run on the blocks of the point, the accumulator taken from the
  point before unless k = 0); the invariant that carries the accumulator from point to point; the launch's
  proof data at any contents `V` of the buffers on entry; and the obligation at every grid point.
-/
import proofs.«150503_j31207232372816_2_alg».proof.Proof.KReg1A
import proofs.«150503_j31207232372816_2_alg».proof.Proof.KReg1B
import proofs.«150503_j31207232372816_2_alg».proof.Proof.KReg1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output block's staging buffer (nothing is stored there: a placeholder nothing consults). -/
def out1_A_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- Case A's stores into the accumulator cover it. -/
theorem scover1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What case A leaves in the accumulator. -/
def sout1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- What case B leaves in the output block's staging buffer (nothing is stored there: a placeholder nothing consults). -/
def out1_B_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- Case B's stores into the accumulator cover it. -/
theorem scover1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What case B leaves in the accumulator. -/
def sout1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- Case C's one store into the output block covers it. -/
theorem cover1_C_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y

/-- What case C leaves in the output block's staging buffer. -/
def out1_C_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)

/-- Case C's stores into the accumulator cover it. -/
theorem scover1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y

/-- What case C leaves in the accumulator. -/
def sout1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

variable (V : (c : Dev nD) → (b : Ref sig .tc) → Buf (Elt F) ((c : Thread nD τ).loc b))

/-! ## What the output block's buffer and the accumulator hold after each point -/

/-- After the body at position `n`: (the output block's staging buffer, the accumulator). -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The launch's invariant before position `n`: before the first point, the buffers it does not stage at anything
    and the generator register at some state; afterwards the same with the accumulator at what the point before
    left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The launch's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The obligation at a grid point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the position mod 4 says which case the point
    is in; the invariant hands over the accumulator at what the point before left (at anything at the very first
    point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 512 := lt_of_lt_of_eq t.isLt (show cfg1.N = 512 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HA, HB, HC, HD, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_A_0 c _ _ _ _ _ _ _ _ _ _ _ _ _ _ _ _ )
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HA, HB, HC, HD, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_A_0 c _ _ _ _ _ _ _ _ _ _ _ _ _ _ _ _ )
          iexact Hg
        isplitl [Ho]; · iexact Ho
        isplitl [H0]; · iexact H0
        isplitl [H1]; · iexact H1
        isplitl [H2]; · iexact H2
        iexists _; iexact H3
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HA, HB, HC, HD, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_C_0 c _ _ _ _ _ _ _ _ _ _ _ _ _ _ _ _ _ )
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ )
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HA, HB, HC, HD, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_B_0 c _ _ _ _ _ _ _ _ _ _ _ _ _ _ _ _ _ )
          iexact Hg
        isplitl [Ho]; · iexact Ho
        isplitl [H0]; · iexact H0
        isplitl [H1]; · iexact H1
        isplitl [H2]; · iexact H2
        iexists _; iexact H3

/-- The obligation at every point. -/
theorem body_obligation1 (c : Dev nD) : BodyObligation (dat1 (F := F) V c) (defs₀ (F := F)) Variants.none () Set.univ := fun t => by
  rw [bigSep_W1, bigSep_W1]
  exact sound_body1 V c t

/-- What the launch hands over is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives that back, the accumulator's contents forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HA, HB, HC, HD, HS0⟩, Hg⟩
  isplitl [HA HB HC HD HS0]
  · isplitl [HA]; · iexact HA
    isplitl [HB]; · iexact HB
    isplitl [HC]; · iexact HC
    isplitl [HD]; · iexact HD
    iexists _; iexact HS0
  iexact Hg

theorem hout1 (c : Dev nD) : (dat1 V c).Φ (Fin.last cfg1.N) ⊢ Pipeline.ΦA spec1 c :=
  Phi_out1 V c _ (by rw [Fin.val_last]; have : cfg1.N = 512 := N_1; omega)

end Cert.Kernel.Hand

end
-- ==== Proof.KRun.lean ====
/-
  The whole program: the first launch, the two host lines (the activations' change of format and the bias
  vector laid out as one row), the second launch.  The contents of every buffer that outlives a launch are
  followed from the start: a launch leaves its output array at what its write-backs make of it and every other
  buffer as it was; a host line writes its own result only.  Every fair execution ends, and every such buffer
  then holds the last of these contents — the three argument arrays what they held at the start.
-/
import proofs.«150503_j31207232372816_2_alg».proof.Proof.KReg0
import proofs.«150503_j31207232372816_2_alg».proof.Proof.KReg1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At the start (the first launch's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first launch: its arrays at what its write-backs leave, the rest as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two host lines (the second launch's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second launch. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### No line and no launch writes an argument array -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

/-- The result array ends at what the second launch's write-backs make of it. -/
theorem W3_main_v3 (c : Dev nD) : W3 m ρ c (Proc.devRef .tc main_v3) = (dat1 (V2 m ρ) c).arrAt 3 cfg1.N :=
  W3_arr m ρ c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The launches as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ) ]
theorem main_run (c : Dev nD) : main (F := F) c = Pipeline.Seg.run (segs m ρ) := (main_chain c).trans (by chain_rfl)

set_option backward.isDefEq.respectTransparency.types false in
/-- Every fair execution ends, faulting nowhere, and every buffer that outlives the launches then holds the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the three argument arrays end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

/-- The same with the result array: it ends at what the second launch's write-backs make of it. -/
theorem run_value : θ_run defs (onTc (τ := τ) (main (F := F))) ⟨m, fun _ => 0, ρ⟩ (fun r => ∀ c : Dev nD,
      r.2.mem ((c.tc : Thread nD τ).loc main_v3) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v3 (by decide))).trans (W3_main_v3 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.Kernel.Hand

end
-- ==== Proof.IReg0.lean ====
/-
  The first launch: the weight matrix is swept in 32 blocks of 512 rows; each block is replaced, entry by
  entry, by its ternary image (two comparisons against the threshold words and two selections) and written
  to the block of the same rows of the quantised matrix.  Here: what the output block holds after the body
  (one store covering the whole block), the body's triple, the launch's proof data at any contents `V` of
  the buffers on entry, and the obligation at every grid point.  Nothing is kept between points.
-/
import proofs.«150503_j31207232372816_2_alg».proof.Proof.Gen.KernelIdeal.Launch
import proofs.«150503_j31207232372816_2_alg».proof.Proof.Gen.KernelIdeal.Skeleton
import proofs.«150503_j31207232372816_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block of rows at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The whole block, as a rectangle. -/
abbrev r0_0 : Rect S512x4096 := Rect.unit (s := S512x4096) ![0, 0] S512x4096.size inb_S512x4096_S512x4096_0_0

/-- The output block after the body: the one store, of the ternary image of the loaded rows. -/
def out0_1 (x0 : Vec F S512x4096 .f32) : Vec F S512x4096 .bf16 :=
  View.canon [⟨r0_0, k0_pay1 (View.ld x0 r0_0)⟩]

/-- That store covers the block. -/
theorem cover0_1 (p0 : Vec F S512x4096 .bf16) (y : S512x4096.Idx) :
    ∃ pc ∈ ([⟨r0_0, p0⟩] : List (View.Piece (Elt F) S512x4096 .bf16)), y ∈ pc.1.set :=
  View.cover_of_tiled [⟨r0_0, p0⟩] S512x4096.size (by rfl) y

set_option maxHeartbeats 1000000 in
/-- The body on whole staging buffers: the rows are left as they were, the output block ends at `out0_1` of them. -/
theorem sound_kernel0 (c : Dev nD) (E : Set ℕ) (i : grid0.Coords) (arg1 : Memref sig .tc .vmem S512x4096 .f32) (harg1 : arg1.IsWhole) (arg2 : Memref sig .tc .vmem S512x4096 .bf16) (harg2 : arg2.IsWhole)
    (x0 : Vec F S512x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out0_1 x0)) -∗ K ⟨⟩))
      ⊢ wp frame (wpE (defs₀ (F := F)) Variants.none c none) E (cc0__quantize_kernel i arg1 harg1 arg2 harg2) K := by
  simp only [cc0__quantize_kernel_eq_skeleton]; unfold cc0__quantize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover0_1 _)

/-- The launch's proof data on core `c`: the arrays as found; after the body the input buffer at its block of
    rows and the output buffer at the block's ternary image; nothing kept, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => out0_1 (iblk0 V c 0 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = out0_1 (iblk0 V c 0 t) := by dsimp only [dat0]

theorem before0_0 (c : Dev nD) (t : Fin cfg0.N) (d) : (dat0 V c).before 0 t d = iblk0 V c 0 t :=
  before0_0_of V (dat0 V c) (A_eq0 V c 0) (after0_0 V c) t d

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  iintro ⟨HΦ, Ho, ⟨%d0, H0⟩, ⟨%d1, H1⟩⟩
  iapply (sound_kernel0 c Set.univ _ _ _ _ _ (iblk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The obligation at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IReg1a.lean ====
/-
  The second launch, shared definitions.  The grid is 8 × 16 × 4: block row i of the activations, block row j
  of the quantised weights, and the chunk k of 1024 input features, k running fastest.  A point's position t
  has k = t mod 4.  The body resets the accumulator where k = 0, adds the chunk's product at every point,
  and where k = 3 stores the accumulator plus the bias row into the output block (i, j); at the other points
  the output window is idle and is not written back.
-/
import proofs.«150503_j31207232372816_2_alg».proof.Proof.Gen.KernelIdeal.Launch
import proofs.«150503_j31207232372816_2_alg».proof.Proof.Gen.KernelIdeal.Skeleton
import proofs.«150503_j31207232372816_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the launch finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Each input window's current staging buffer holds its block at every point, fetched there or not (the bias
    row is fetched only where k = 0, and its block index does not move in between). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions, from the grid coordinates -/

/-- "k = 0": the accumulator is reset. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)

/-- "k = 3": the output block is stored. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_3_C : ∀ t : Fin cfg1.N, ¬cond1_0 (grid1.coords t) → cond1_1 (grid1.coords t) → cfg1.idle 3 (grid1.coords t) = false := by decide +kernel

/-! ## The staging buffers at a point, the accumulator -/

abbrev VO1_3 : View sig .tc .vmem S1024x1024 .f32 := (Memref.whole cc1_stg3_0 : Memref sig .tc .vmem S1024x1024 .f32).view
abbrev ms1_0 (t : Fin cfg1.N) : Memref sig .tc .vmem S1024x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .f32 := win1_3.stage (cfg1.slots t 3)
abbrev hs1_3 (t : Fin cfg1.N) : (ms1_3 t).IsWhole := hstage1_3 ((cfg1.slots t 3).cast nbuf1_3)
/-- The accumulator: a whole buffer of the launch's own, kept from point to point. -/
abbrev scM1_0 : Memref sig .tc .vmem S1024x1024 .f32 := Memref.whole cc1_scratch0
abbrev VS1_0 : View sig .tc .vmem S1024x1024 .f32 := scM1_0.view

/-- The buffers of the first launch that this one never touches, each at some contents. -/
def idleBufs (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f))

/-- What the launch hands the body besides the windows: those buffers, the accumulator at some contents, and
    the generator register at some state. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ d, owns (c : Thread nD τ) scM1_0 fullShare d)) ∗ (∃ r, prngReg c r)) := by
  unfold Pipeline.ΦA; rw [scopedRest1_eq]; simp only [scM1_0, owns_whole]; try rfl

end Cert.KernelIdeal.Hand

end
-- ==== Proof.IReg1A.lean ====
/-
  The second launch's body run whole in one of its three cases (which of the two conditions hold), on any whole
  staging buffers: the input blocks are left as they were, and what the stores leave in the accumulator (and,
  where k = 3, in the output block) is recorded as the list of pieces written, last first.
-/
import proofs.«150503_j31207232372816_2_alg».proof.Proof.IReg1a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case k = 0: the accumulator, whatever it held, is reset and then holds the first chunk's product; the
    output block is not touched. -/
noncomputable def kernelRun1_A (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.IReg1B.lean ====
/-
  The second launch's body run whole in one of its three cases (which of the two conditions hold), on any whole
  staging buffers: the input blocks are left as they were, and what the stores leave in the accumulator (and,
  where k = 3, in the output block) is recorded as the list of pieces written, last first.
-/
import proofs.«150503_j31207232372816_2_alg».proof.Proof.IReg1a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case k = 1, 2: the accumulator, found at `xs0`, gains the chunk's product; the output block is not touched. -/
noncomputable def kernelRun1_B (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (xi3 : Vec F S1024x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨[], ?_, fun xi3 E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

end Cert.KernelIdeal.Hand

end
-- ==== Proof.IReg1C.lean ====
/-
  The second launch's body run whole in one of its three cases (which of the two conditions hold), on any whole
  staging buffers: the input blocks are left as they were, and what the stores leave in the accumulator (and,
  where k = 3, in the output block) is recorded as the list of pieces written, last first.
-/
import proofs.«150503_j31207232372816_2_alg».proof.Proof.IReg1a

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- Case k = 3: the accumulator, found at `xs0`, gains the last chunk's product, and the output block, whatever
    it held, is stored whole. -/
noncomputable def kernelRun1_C (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) :
    Σ' (L3 : List (View.Piece (Elt F) S1024x1024 .f32)), { LS0 : List (View.Piece (Elt F) S1024x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc1__matmul_kernel i arg3 harg3 arg4 harg4 arg5 harg5 arg6 harg6 arg7 harg7) K } := by
  refine ⟨?_, ?_, fun E K => ?run⟩
  case run =>
    simp only [cc1__matmul_kernel_eq_skeleton]; unfold cc1__matmul_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

end Cert.KernelIdeal.Hand

end
-- ==== Proof.IReg1.lean ====
/-
  The second launch: what the accumulator and the output block hold after each grid point, by recursion on
  the point's position (the case of the point run on the blocks of the point, the accumulator taken from the
  point before unless k = 0); the invariant that carries the accumulator from point to point; the launch's
  proof data at any contents `V` of the buffers on entry; and the obligation at every grid point.
-/
import proofs.«150503_j31207232372816_2_alg».proof.Proof.IReg1A
import proofs.«150503_j31207232372816_2_alg».proof.Proof.IReg1B
import proofs.«150503_j31207232372816_2_alg».proof.Proof.IReg1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What case A leaves in the output block's staging buffer (nothing is stored there: a placeholder nothing consults). -/
def out1_A_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : Vec F S1024x1024 .f32 :=
  VO1_3.read (Elt F) (VO1_3.writes (Elt F) VO1_3.junk (kernelRun1_A c i arg3 harg3 arg4 harg4 arg5 harg5 arg6 harg6 arg7 harg7 hc0 hc1 x0 x1 x2).1)

/-- Case A's stores into the accumulator cover it. -/
theorem scover1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) (y : S1024x1024.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S1024x1024.size (by sl_kernel_rfl) y

/-- What case A leaves in the accumulator. -/
def sout1_A_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i)
    (x0 : Vec F S1024x1024 .bf16) (x1 : Vec F S1024x1024 .bf16) (x2 : Vec F S1x1024 .f32) : Vec F S1024x1024 .f32 :=
  VS1_0.read (Elt F) (VS1_0.writes (Elt F) VS1_0.junk (kernelRun1_A c i arg3 harg3 arg4 harg4 arg5 harg5 arg6 harg6 arg7 harg7 hc0 hc1 x0 x1 x2).2.1)

/-- What case B leaves in the output block's staging buffer (nothing is stored there: a placeholder nothing consults). -/
def out1_B_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_B c i arg3 harg3 arg4 harg4 arg5 harg5 arg6 harg6 arg7 harg7 hc0 hc1 x0 x1 x2 xs0).1)

/-- Case B's stores into the accumulator cover it. -/
theorem scover1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S1024x1024.size (by sl_kernel_rfl) y

/-- What case B leaves in the accumulator. -/
def sout1_B_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i)
    (x0 : Vec F S1024x1024 .bf16) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_B c i arg3 harg3 arg4 harg4 arg5 harg5 arg6 harg6 arg7 harg7 hc0 hc1 x0 x1 x2 xs0).2.1)

/-- Case C's one store into the output block covers it. -/
theorem cover1_C_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1024x1024.size (by sl_kernel_rfl) y

/-- What case C leaves in the output block's staging buffer. -/
def out1_C_3 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) : Vec F S1024x1024 .f32 :=
  VO1_3.read (Elt F) (VO1_3.writes (Elt F) VO1_3.junk (kernelRun1_C c i arg3 harg3 arg4 harg4 arg5 harg5 arg6 harg6 arg7 harg7 hc0 hc1 x0 x1 x2 xs0).1)

/-- Case C's stores into the accumulator cover it. -/
theorem scover1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) (y : S1024x1024.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S1024x1024.size (by sl_kernel_rfl) y

/-- What case C leaves in the accumulator. -/
def sout1_C_0 (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i)
    (x0 : Vec F S1024x1024 .bf16) (x1 : Vec F S1024x1024 .bf16) (x2 : Vec F S1x1024 .f32) (xs0 : Vec F S1024x1024 .f32) : Vec F S1024x1024 .f32 :=
  VS1_0.read (Elt F) (VS1_0.writes (Elt F) VS1_0.junk (kernelRun1_C c i arg3 harg3 arg4 harg4 arg5 harg5 arg6 harg6 arg7 harg7 hc0 hc1 x0 x1 x2 xs0).2.1)

variable (V : (c : Dev nD) → (b : Ref sig .tc) → Buf (Elt F) ((c : Thread nD τ).loc b))

/-! ## What the output block's buffer and the accumulator hold after each point -/

/-- After the body at position `n`: (the output block's staging buffer, the accumulator). -/
def outsAt1 (c : Dev nD) : (n : ℕ) → n < cfg1.N → Vec F S1024x1024 .f32 × Vec F S1024x1024 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 4 = 0 then
      if h1 : (n + 1) % 4 = 3 then
        False.elim (by omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 4 = 3 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 4 = 0) (h1 : ¬t.val % 4 = 3) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

theorem outsAt1_B (c : Dev nD) (t : Fin cfg1.N) (h0 : ¬t.val % 4 = 0) (h1 : ¬t.val % 4 = 3) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 4 = 0) (h1 : t.val % 4 = 3) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The launch's invariant before position `n`: before the first point, the buffers it does not stage at anything
    and the generator register at some state; afterwards the same with the accumulator at what the point before
    left in it. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c n hn).2)) ∗ (∃ r, prngReg c r)) := rfl

theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ owns (c : Thread nD τ) scM1_0 fullShare ((outsAt1 V c (n - 1) (by omega)).2)) ∗ (∃ r, prngReg c r)) := by
  cases n with
  | zero => exact absurd rfl hz
  | succ n => rfl

/-! ## The launch's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The obligation at a grid point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the position mod 4 says which case the point
    is in; the invariant hands over the accumulator at what the point before left (at anything at the very first
    point) and takes it back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 512 := lt_of_lt_of_eq t.isLt (show cfg1.N = 512 from N_1)
  by_cases h0 : t.val % 4 = 0
  · by_cases h1 : t.val % 4 = 3
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HA, HB, HC, HD, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_A_0 c _ _ _ _ _ _ _ _ _ _ _ _ _ _ _ _ )
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HA, HB, HC, HD, HS0⟩, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_A_0 c _ _ _ _ _ _ _ _ _ _ _ _ _ _ _ _ )
          iexact Hg
        isplitl [Ho]; · iexact Ho
        isplitl [H0]; · iexact H0
        isplitl [H1]; · iexact H1
        isplitl [H2]; · iexact H2
        iexists _; iexact H3
  · by_cases h1 : t.val % 4 = 3
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_3 sout1_C_0; (try dsimp only)
      by_cases hz : t.val = 0
      · exfalso; omega
      · rw [PhiS1_castSucc V c t, PhiS1_pos V c _ _ hz]
        iintro ⟨⟨⟨HA, HB, HC, HD, HS0⟩, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_C_0 c _ _ _ _ _ _ _ _ _ _ _ _ _ _ _ _ _ )
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ )
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HA, HB, HC, HD, HS0⟩, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HA HB HC HD HS0 Hg]
        · isplitl [HA HB HC HD HS0]
          · isplitl [HA]; · iexact HA
            isplitl [HB]; · iexact HB
            isplitl [HC]; · iexact HC
            isplitl [HD]; · iexact HD
            unfold owns; iexists _; isplitr
            swap; · iexact HS0
            ipureintro; exact View.read_writes_of_cover _ _ _ _ _ (scover1_B_0 c _ _ _ _ _ _ _ _ _ _ _ _ _ _ _ _ _ )
          iexact Hg
        isplitl [Ho]; · iexact Ho
        isplitl [H0]; · iexact H0
        isplitl [H1]; · iexact H1
        isplitl [H2]; · iexact H2
        iexists _; iexact H3

/-- The obligation at every point. -/
theorem body_obligation1 (c : Dev nD) : BodyObligation (dat1 (F := F) V c) (defs₀ (F := F)) Variants.none () Set.univ := fun t => by
  rw [bigSep_W1, bigSep_W1]
  exact sound_body1 V c t

/-- What the launch hands over is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives that back, the accumulator's contents forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HA, HB, HC, HD, HS0⟩, Hg⟩
  isplitl [HA HB HC HD HS0]
  · isplitl [HA]; · iexact HA
    isplitl [HB]; · iexact HB
    isplitl [HC]; · iexact HC
    isplitl [HD]; · iexact HD
    iexists _; iexact HS0
  iexact Hg

theorem hout1 (c : Dev nD) : (dat1 V c).Φ (Fin.last cfg1.N) ⊢ Pipeline.ΦA spec1 c :=
  Phi_out1 V c _ (by rw [Fin.val_last]; have : cfg1.N = 512 := N_1; omega)

end Cert.KernelIdeal.Hand

end
-- ==== Proof.IRun.lean ====
/-
  The whole program: the first launch, the two host lines (the activations' change of format and the bias
  vector laid out as one row), the second launch.  The contents of every buffer that outlives a launch are
  followed from the start: a launch leaves its output array at what its write-backs make of it and every other
  buffer as it was; a host line writes its own result only.  Every fair execution ends, and every such buffer
  then holds the last of these contents — the three argument arrays what they held at the start.
-/
import proofs.«150503_j31207232372816_2_alg».proof.Proof.IReg0
import proofs.«150503_j31207232372816_2_alg».proof.Proof.IReg1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents at each boundary -/

/-- At the start (the first launch's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After the first launch: its arrays at what its write-backs leave, the rest as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the two host lines (the second launch's entry). -/
abbrev W2 : Dev nD → Valuation τ sig (Elt F) := fun c => StableHlo.after hostOps1 (W1 m ρ c)
abbrev V2 : (c : Dev nD) → (b : Ref sig .tc) → Buf (Elt F) ((c : Thread nD τ).loc b) := fun c b => W2 m ρ c b
/-- After the second launch. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-! ### No line and no launch writes an argument array -/

theorem W3_main_arg0 (c : Dev nD) : W3 m ρ c (Proc.devRef .tc main_arg0) = m ((c : Thread nD τ).loc main_arg0) :=
  calc W3 m ρ c (Proc.devRef .tc main_arg0)
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg0) := W1_of_ne m ρ c main_arg0 (by decide)
    _ = m ((c : Thread nD τ).loc main_arg0) := rfl

theorem W3_main_arg1 (c : Dev nD) : W3 m ρ c (Proc.devRef .tc main_arg1) = m ((c : Thread nD τ).loc main_arg1) :=
  calc W3 m ρ c (Proc.devRef .tc main_arg1)
    _ = W2 m ρ c (Proc.devRef .tc main_arg1) := W3_of_ne m ρ c main_arg1 (by decide)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl

theorem W3_main_arg2 (c : Dev nD) : W3 m ρ c (Proc.devRef .tc main_arg2) = m ((c : Thread nD τ).loc main_arg2) :=
  calc W3 m ρ c (Proc.devRef .tc main_arg2)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg2) := W1_of_ne m ρ c main_arg2 (by decide)
    _ = m ((c : Thread nD τ).loc main_arg2) := rfl

/-- The result array ends at what the second launch's write-backs make of it. -/
theorem W3_main_v3 (c : Dev nD) : W3 m ρ c (Proc.devRef .tc main_v3) = (dat1 (V2 m ρ) c).arrAt 3 cfg1.N :=
  W3_arr m ρ c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W3 m ρ c) ∗ ∃ r, prngReg c r)

/-! ## The launches as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine BIBase.Entails.trans (hout1 (V2 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the run -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ) ]
theorem main_run (c : Dev nD) : main (F := F) c = Pipeline.Seg.run (segs m ρ) := (main_chain c).trans (by chain_rfl)

set_option backward.isDefEq.respectTransparency.types false in
/-- Every fair execution ends, faulting nowhere, and every buffer that outlives the launches then holds the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h c => h c)

/-- The frame: the three argument arrays end as they started. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

/-- The same with the result array: it ends at what the second launch's write-backs make of it. -/
theorem run_value : θ_run defs (onTc (τ := τ) (main (F := F))) ⟨m, fun _ => 0, ρ⟩ (fun r => ∀ c : Dev nD,
      r.2.mem ((c.tc : Thread nD τ).loc main_v3) = (dat1 (V2 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_v3 (by decide))).trans (W3_main_v3 m ρ c),
     (h c _ (mem_uc main_arg0 (by decide))).trans (W3_main_arg0 m ρ c),
     (h c _ (mem_uc main_arg1 (by decide))).trans (W3_main_arg1 m ρ c),
     (h c _ (mem_uc main_arg2 (by decide))).trans (W3_main_arg2 m ρ c)⟩) (run_all m ρ)

end Cert.KernelIdeal.Hand

end
-- ==== Proof.Spec.lean ====
/-
  The function both programs compute, on the extended reals.

  A weight entry v is sent to one of three values by two comparisons against the threshold words
  (the f32 words of 0.3 and -0.3, kept as words: both programs carry the same words, so their values
  are never needed): 1 when v is above the upper threshold, else -1 when v is below the lower one,
  else 0.  The result at row p and column e is the sum over the 4096 input features k of
  x(p,k) times the ternary image of w(e,k), plus the bias entry b(e).
-/
import Idealize.ShloMosaic.PureOps.Ideal
import Idealize.ShloMosaic.Lib.ValueIdx

noncomputable section

namespace Cert.Spec

open Idealize.ShloMosaic Idealize.ShloMosaic.ValueIdx

/-- The ternary image of an extended real: the two comparisons and the two selections, entry by entry,
    exactly as both programs spell them. -/
def tern (v : EReal) : EReal :=
  Scalar.select (Ideal.cmp .ogt v (Ideal.ofBits .f32 0x3E99999A#32)) (Ideal.ofBits .f32 0x3F800000#32)
    (Scalar.select (Ideal.cmp .olt v (Ideal.ofBits .f32 0xBE99999A#32)) (Ideal.ofBits .f32 0xBF800000#32)
      (Ideal.ofBits .f32 0x00000000#32))

/-- The ternary linear layer: out(p,e) = Σ_k x(p,k) · tern(w(e,k)) + b(e). -/
def G (x : (⟨2, ![8192, 4096]⟩ : Shape).Idx → EReal) (w : (⟨2, ![16384, 4096]⟩ : Shape).Idx → EReal)
    (b : (⟨1, ![16384]⟩ : Shape).Idx → EReal) : (⟨2, ![8192, 16384]⟩ : Shape).Idx → EReal :=
  fun i => (∑ k : Fin 4096, x (ix2 (i 0) k) * tern (w (ix2 (i 1) k))) + b (ix1 (i 1))

/-- `G` at explicit coordinates. -/
theorem G_apply (x : (⟨2, ![8192, 4096]⟩ : Shape).Idx → EReal) (w : (⟨2, ![16384, 4096]⟩ : Shape).Idx → EReal)
    (b : (⟨1, ![16384]⟩ : Shape).Idx → EReal) (p : Fin 8192) (e : Fin 16384) :
    G x w b (ix2 p e) = (∑ k : Fin 4096, x (ix2 p k) * tern (w (ix2 e k))) + b (ix1 e) := rfl

end Cert.Spec

end
-- ==== Proof.IVal0.lean ====
/-
  The first launch's result as one function of the weight matrix.  Point t writes back rows 512·t … 512·t+511;
  what it writes is, entry by entry, the ternary image of the same rows of the weight matrix (the input block and
  the output block sit at the same rows).  The 32 blocks tile the matrix, so after the launch the quantised matrix
  holds the ternary image of every weight entry.
-/
import proofs.«150503_j31207232372816_2_alg».proof.Proof.IReg0
import proofs.«150503_j31207232372816_2_alg».proof.Proof.Spec
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

theorem hzQ : (![0, 0] : Fin 2 → Nat) = fun _ => 0 := funext fun a => by fin_cases a <;> rfl

/-- The quantised matrix: the ternary image of each weight entry. -/
def Q0 (w : S16384x4096.Idx → Elt Ideal .f32) : S16384x4096.Idx → Elt Ideal .bf16 := fun i => Cert.Spec.tern (w i)

/-- The body's arithmetic on a block is the ternary image entry by entry (every operation is entrywise, and the
    change of format is the identity on the extended reals). -/
theorem payQ_eq (x0 : Vec Ideal S512x4096 .f32) : k0_pay1 (F := Ideal) x0 = fun y => Cert.Spec.tern (x0 y) := rfl

/-- The block indices over the grid: both windows sit at block row t, block column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- What point t writes back is block t of the quantised matrix. -/
theorem flushed0_eq (c : Dev nD) (t : Fin cfg0.N) :
    (dat0 (F := Ideal) V c).flushed 1 t = ((cfg0.win 1).blk t).view.read (Elt Ideal) (Q0 (V c main_arg1)) := by
  show (cfg0.win 1).cut (grid0.coords t) ((dat0 V c).after 1 t) = _
  rw [after0_1]
  unfold out0_1
  rw [View.canon_unit_zero hzQ]
  simp only [View.ld_unit_zero (S := S512x4096) hzQ]
  rw [payQ_eq]
  obtain ⟨e0, e1, e2, e3⟩ := idx_facts0 t
  funext j
  show Cert.Spec.tern (V c main_arg1 (((cfg0.win 0).blk t).view.emb j)) = Cert.Spec.tern (V c main_arg1 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 512 + 1 * (j 0).val = win0_1.index t (0 : Fin 2) * 512 + 1 * (j 0).val; omega
    | ⟨1, _⟩ => show win0_0.index t (1 : Fin 2) * 4096 + 1 * (j 1).val = win0_1.index t (1 : Fin 2) * 4096 + 1 * (j 1).val; omega
  rw [h0]

/-- An index is in point t's block iff each coordinate is in the block's range. -/
theorem mem_blk0 (t : Fin cfg0.N) (i : S16384x4096.Idx) :
    i ∈ ((cfg0.win 1).blk t).view.set ↔ ∀ a : Fin 2, win0_1.index t a * S512x4096.size a ≤ (i a).val ∧ (i a).val < win0_1.index t a * S512x4096.size a + S512x4096.size a := by
  show i ∈ ((View.whole main_v0).slice (win0_1.rect t)).set ↔ _
  rw [View.set_slice_whole, Rect.mem_set_unit]
  exact Iff.rfl

/-- Every entry is in the block of the point numbered by its row divided by 512. -/
theorem cover0 (i : S16384x4096.Idx) : ∃ t : Fin cfg0.N, (cfg0.win 1).flush t = true ∧ i ∈ ((cfg0.win 1).blk t).view.set := by
  have hi0 : (i 0).val < 16384 := (i 0).isLt
  have hi1 : (i 1).val < 4096 := (i 1).isLt
  have hN : cfg0.N = 32 := N_0
  have ht : (i 0).val / 512 < cfg0.N := by rw [hN]; omega
  refine ⟨⟨(i 0).val / 512, ht⟩, flush0_1 _, ?_⟩
  rw [mem_blk0]
  obtain ⟨e0, e1, e2, e3⟩ := idx_facts0 ⟨(i 0).val / 512, ht⟩
  have e2' : win0_1.index ⟨(i 0).val / 512, ht⟩ (0 : Fin 2) = (i 0).val / 512 := e2
  intro a
  match a with
  | ⟨0, _⟩ => show win0_1.index ⟨(i 0).val / 512, ht⟩ (0 : Fin 2) * 512 ≤ (i 0).val ∧ (i 0).val < win0_1.index ⟨(i 0).val / 512, ht⟩ (0 : Fin 2) * 512 + 512; omega
  | ⟨1, _⟩ => show win0_1.index ⟨(i 0).val / 512, ht⟩ (1 : Fin 2) * 4096 ≤ (i 1).val ∧ (i 1).val < win0_1.index ⟨(i 0).val / 512, ht⟩ (1 : Fin 2) * 4096 + 4096; omega

/-- After the first launch the quantised matrix is the ternary image of the weight matrix. -/
theorem final0 (c : Dev nD) : (dat0 (F := Ideal) V c).arrAt 1 cfg0.N = Q0 (V c main_arg1) :=
  (dat0 V c).arrAt_eq_of_cover 1 (Q0 (V c main_arg1)) (fun t _ => flushed0_eq V c t) cover0

end Cert.KernelIdeal.Hand

end
-- ==== Proof.IVal1p.lean ====
/-
  What the second launch's stores leave, case by case, as the body's arithmetic of the blocks it loaded:
  the accumulator after a point is the chunk's product added to what it held (to zero where k = 0), and the
  output block stored where k = 3 is that accumulator plus the bias row.  Each store covers its whole buffer, so
  a later load reads the last value stored, and a load of an untouched input reads the block handed in.
-/
import proofs.«150503_j31207232372816_2_alg».proof.Proof.IReg1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz : (![0, 0] : Fin 2 → Nat) = fun _ => 0 := funext fun a => by fin_cases a <;> rfl

/-- k = 0: the accumulator ends at the first chunk's product added to the zero fill. -/
theorem sout1_A_0_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : cond1_0 i) (hc1 : ¬cond1_1 i) (x0 : Vec F S1024x1024 .bf16) (x1 : Vec F S1024x1024 .bf16) (x2 : Vec F S1x1024 .f32) :
    sout1_A_0 (F := F) c i arg3 harg3 arg4 harg4 arg5 harg5 arg6 harg6 arg7 harg7 hc0 hc1 x0 x1 x2 = k1_pay2 (k1_pay1 (F := F)) x0 x1 := by
  unfold sout1_A_0
  rw [View.read_writes_eq_canon _ _ _ (scover1_A_0 c i arg3 harg3 arg4 harg4 arg5 harg5 arg6 harg6 arg7 harg7 hc0 hc1 x0 x1 x2)]
  unfold kernelRun1_A; dsimp only; sl_unfold_words
  rw [View.canon_cons_unit_zero hz, View.readCov_unit_zero _ hz]
  simp only [View.readAt_eq_ld, harg3.read_unread, harg4.read_unread, View.ld_unit_zero (S := S1024x1024) hz]

/-- k = 1, 2: the accumulator ends at the chunk's product added to what it held. -/
theorem sout1_B_0_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : ¬cond1_1 i) (x0 : Vec F S1024x1024 .bf16) (x1 : Vec F S1024x1024 .bf16) (x2 : Vec F S1x1024 .f32) (xs0 : Vec F S1024x1024 .f32) :
    sout1_B_0 (F := F) c i arg3 harg3 arg4 harg4 arg5 harg5 arg6 harg6 arg7 harg7 hc0 hc1 x0 x1 x2 xs0 = k1_pay2 xs0 x0 x1 := by
  unfold sout1_B_0
  rw [View.read_writes_eq_canon _ _ _ (scover1_B_0 c i arg3 harg3 arg4 harg4 arg5 harg5 arg6 harg6 arg7 harg7 hc0 hc1 x0 x1 x2 xs0)]
  unfold kernelRun1_B; dsimp only; sl_unfold_words
  rw [View.canon_unit_zero hz]
  simp only [View.readAt_eq_ld, harg3.read_unread, harg4.read_unread, harg7.read_unread, View.ld_unit_zero (S := S1024x1024) hz]

/-- k = 3: likewise, -/
theorem sout1_C_0_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .bf16) (x1 : Vec F S1024x1024 .bf16) (x2 : Vec F S1x1024 .f32) (xs0 : Vec F S1024x1024 .f32) :
    sout1_C_0 (F := F) c i arg3 harg3 arg4 harg4 arg5 harg5 arg6 harg6 arg7 harg7 hc0 hc1 x0 x1 x2 xs0 = k1_pay2 xs0 x0 x1 := by
  unfold sout1_C_0
  rw [View.read_writes_eq_canon _ _ _ (scover1_C_0 c i arg3 harg3 arg4 harg4 arg5 harg5 arg6 harg6 arg7 harg7 hc0 hc1 x0 x1 x2 xs0)]
  unfold kernelRun1_C; dsimp only; sl_unfold_words
  rw [View.canon_unit_zero hz]
  simp only [View.readAt_eq_ld, harg3.read_unread, harg4.read_unread, harg7.read_unread, View.ld_unit_zero (S := S1024x1024) hz]

/-- and the output block is that accumulator plus the bias row. -/
theorem out1_C_3_eq (c : Dev nD) (i : grid1.Coords) (arg3 : Memref sig .tc .vmem S1024x1024 .bf16) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (hc0 : ¬cond1_0 i) (hc1 : cond1_1 i) (x0 : Vec F S1024x1024 .bf16) (x1 : Vec F S1024x1024 .bf16) (x2 : Vec F S1x1024 .f32) (xs0 : Vec F S1024x1024 .f32) :
    out1_C_3 (F := F) c i arg3 harg3 arg4 harg4 arg5 harg5 arg6 harg6 arg7 harg7 hc0 hc1 x0 x1 x2 xs0 = k1_pay3 (k1_pay2 xs0 x0 x1) x2 := by
  unfold out1_C_3
  rw [View.read_writes_eq_canon _ _ _ (cover1_C_3 c i arg3 harg3 arg4 harg4 arg5 harg5 arg6 harg6 arg7 harg7 hc0 hc1 x0 x1 x2 xs0)]
  unfold kernelRun1_C; dsimp only; sl_unfold_words
  rw [View.canon_unit_zero hz, View.readCov_unit_zero _ hz]
  simp only [View.readAt_eq_ld, harg3.read_unread, harg4.read_unread, harg5.read_unread, harg7.read_unread, View.ld_unit_zero (S := S1024x1024) hz, View.ld_unit_zero (S := S1x1024) hz]

end Cert.KernelIdeal.Hand

end
-- ==== Proof.LibRowOps.lean ====
/-
  Rows against rows: reading a matrix product that contracts the LAST axis of both operands, and a sum over the
  last axis of a matrix, at an index — on the extended reals, where a product is the exact sum of products.

  For x of shape [a, n] and w of shape [b, n], the product contracting axis 1 of both has shape [a, b], and its entry
  (p, e) is the sum over k < n of x(p, k) * w(e, k): the inner product of row p of x with row e of w. The kernel's
  matrix-unit product into a zero accumulator and the host's general dot product are both that sum. A sum over
  the last axis of an [a, b] array at row p is the sum over k < b of the entries (p, k), preceded on the host by
  the initial value.
-/
import Idealize.ShloMosaic.PureOps.Ideal.Laws
import Idealize.ShloMosaic.Lib.ValueIdx

noncomputable section

namespace Cert.RowOps

open Idealize.ShloMosaic Idealize.ShloMosaic.ValueIdx

variable {a b n : ℕ}

/-- The dimension numbers "contract axis 1 of both operands, keep axis 0 of each, no batch axis". -/
abbrev rowsDims (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ where
  lhsContracting := [1]
  rhsContracting := [1]
  lhsNonContracting := [0]
  rhsNonContracting := [0]
  lhsBatch := []
  rhsBatch := []
  wf := wf

variable (wf : DotDims.WF ⟨2, ![a, n]⟩ ⟨2, ![b, n]⟩ ⟨2, ![a, b]⟩ [1] [1] [0] [0] [] [])

theorem contr_rank : (rowsDims wf).contr.rank = 1 := rfl
theorem contr_size : (rowsDims wf).contr.size ⟨0, Nat.one_pos⟩ = n := rfl

/-- The left operand's index at output (p, e) and contraction index q: row p. -/
theorem lhs_row (i : (⟨2, ![a, b]⟩ : Shape).Idx) (q : (rowsDims wf).contr.Idx) :
    ((rowsDims wf).lhsIdx i q 0).val = (i 0).val := by
  unfold DotDims.lhsIdx
  rw [dif_neg (show ¬(0 : Fin (⟨2, ![a, n]⟩ : Shape).rank) ∈ (rowsDims wf).lhsBatch from List.not_mem_nil),
    dif_pos (show (0 : Fin (⟨2, ![a, n]⟩ : Shape).rank) ∈ (rowsDims wf).lhsNonContracting from List.mem_singleton.mpr rfl)]
  rfl
/-- … column q. -/
theorem lhs_col (i : (⟨2, ![a, b]⟩ : Shape).Idx) (q : (rowsDims wf).contr.Idx) :
    ((rowsDims wf).lhsIdx i q 1).val = (q ⟨0, Nat.one_pos⟩).val :=
  (rowsDims wf).lhsIdx_val_of_single rfl i q
/-- The right operand's: row e, -/
theorem rhs_row (i : (⟨2, ![a, b]⟩ : Shape).Idx) (q : (rowsDims wf).contr.Idx) :
    ((rowsDims wf).rhsIdx i q 0).val = (i 1).val := by
  unfold DotDims.rhsIdx
  rw [dif_neg (show ¬(0 : Fin (⟨2, ![b, n]⟩ : Shape).rank) ∈ (rowsDims wf).rhsBatch from List.not_mem_nil),
    dif_pos (show (0 : Fin (⟨2, ![b, n]⟩ : Shape).rank) ∈ (rowsDims wf).rhsNonContracting from List.mem_singleton.mpr rfl)]
  rfl
/-- column q. -/
theorem rhs_col (i : (⟨2, ![a, b]⟩ : Shape).Idx) (q : (rowsDims wf).contr.Idx) :
    ((rowsDims wf).rhsIdx i q 1).val = (q ⟨0, Nat.one_pos⟩).val :=
  (rowsDims wf).rhsIdx_val_of_single rfl i q

/-- The contraction's sum at (p, e), re-indexed by the one contracted coordinate: the inner product of row p of x with
    row e of w. -/
theorem contraction_rows (x : (⟨2, ![a, n]⟩ : Shape).Idx → EReal) (w : (⟨2, ![b, n]⟩ : Shape).Idx → EReal) (p : Fin a) (e : Fin b) :
    ∑ q : (rowsDims wf).contr.Idx, x ((rowsDims wf).lhsIdx (ix2 p e) q) * w ((rowsDims wf).rhsIdx (ix2 p e) q)
      = ∑ k : Fin n, x (ix2 p k) * w (ix2 e k) := by
  rw [← Equiv.sum_comp (contrEquiv1 (rowsDims wf) n rfl rfl).symm]
  refine Finset.sum_congr rfl fun k _ => ?_
  have hk := contrEquiv1_symm_val (rowsDims wf) n rfl rfl k
  have el : (rowsDims wf).lhsIdx (ix2 p e) ((contrEquiv1 (rowsDims wf) n rfl rfl).symm k) = ix2 p k := funext fun ax => Fin.ext (by
    match ax with
    | ⟨0, _⟩ => exact lhs_row wf _ _
    | ⟨1, _⟩ => exact (lhs_col wf _ _).trans hk)
  have er : (rowsDims wf).rhsIdx (ix2 p e) ((contrEquiv1 (rowsDims wf) n rfl rfl).symm k) = ix2 e k := funext fun ax => Fin.ext (by
    match ax with
    | ⟨0, _⟩ => exact rhs_row wf _ _
    | ⟨1, _⟩ => exact (rhs_col wf _ _).trans hk)
  rw [el, er]

/-- The kernel's matrix-unit product into the zero accumulator, at (p, e). -/
theorem matmul_rows_apply (prec : Option ContractPrecision) (x : FVec Ideal ⟨2, ![a, n]⟩ .f32) (w : FVec Ideal ⟨2, ![b, n]⟩ .f32)
    (p : Fin a) (e : Fin b) :
    FloatOps.matmul (rowsDims wf) prec x w (constant ⟨2, ![a, b]⟩ .f32 0x00000000#32) (ix2 p e)
      = ∑ k : Fin n, x (ix2 p k) * w (ix2 e k) :=
  (Ideal.matmul_constant_zero_apply (rowsDims wf) prec x w (ix2 p e)).trans (contraction_rows wf x w p e)

/-- The host's general dot product, at (p, e). -/
theorem dotGeneral_rows_apply (prec : Option ContractPrecision) (sched : HostSchedule) (x : FVec Ideal ⟨2, ![a, n]⟩ .f32)
    (w : FVec Ideal ⟨2, ![b, n]⟩ .f32) (p : Fin a) (e : Fin b) :
    FloatOps.dotGeneral (rowsDims wf) prec sched x w (ix2 p e) = ∑ k : Fin n, x (ix2 p k) * w (ix2 e k) :=
  (Ideal.dotGeneral_apply (rowsDims wf) prec sched x w (ix2 p e)).trans (contraction_rows wf x w p e)

/-- A kernel's sum over the last axis of an [a, b] vector, at row p: the sum of the row's entries. -/
theorem laneSum_apply (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  refine Finset.sum_congr rfl fun k _ => congrArg src (funext fun ax => Fin.ext ?_)
  match ax with
  | ⟨0, _⟩ => rfl
  | ⟨1, _⟩ => rfl

/-- The host's sum over the last axis of an [a, b] array from the initial value `init`, at row p. -/
theorem hostRowSum_apply (src : FVec Ideal ⟨2, ![a, b]⟩ .f32) (h' : Shape.ReducesTo ⟨2, ![a, b]⟩ [1] ⟨1, ![a]⟩)
    (h : Shape.Reduces ⟨2, ![a, b]⟩ [1] ⟨1, ![a]⟩) (init : EReal) (p : Fin a) :
    Ideal.hostReduceAdd h' src init (ix1 p) = init + ∑ k : Fin b, src (ix2 p k) := by
  refine (Ideal.hostReduceAdd_single h' h src init (ix1 p)).trans ?_
  refine congrArg (init + ·) (Finset.sum_congr rfl fun k _ => congrArg src (funext fun ax => Fin.ext ?_))
  match ax with
  | ⟨0, _⟩ => rfl
  | ⟨1, _⟩ => rfl

end Cert.RowOps

end
-- ==== Proof.LibRowOpsFormats.lean ====
/-
  Rows against rows, whatever the operands' float formats.

  A matrix-unit product that contracts the last axis of an [a, n] and a [b, n] operand into a zero accumulator is, on the
  extended reals, the sum over k of x(p,k) * w(e,k) at (p, e) — also when the two operands are held in shorter float
  formats than the accumulator (a change of format is the identity there). The dimension record may be any record equal
  to "contract axis 1 of both, keep axis 0 of each, no batch axis".
-/
import proofs.«150503_j31207232372816_2_alg».proof.Proof.LibRowOps
import Idealize.ShloMosaic.PureOps.Ideal.Laws
import Idealize.ShloMosaic.Lib.ValueIdx

noncomputable section

open scoped BigOperators

namespace Cert.RowOps

open Idealize.ShloMosaic Idealize.ShloMosaic.ValueIdx

/-- A product contracting the last axis of an [a, n] and a [b, n] operand into the zero accumulator, whatever the
    operands' float formats, is at (p, e) the sum over k of x(p,k) * w(e,k). -/
theorem rows_matmul {a b n : ℕ} {φ₁ φ₂ : FTy}
    (wf : DotDims.WF ⟨2, ![a, n]⟩ ⟨2, ![b, n]⟩ ⟨2, ![a, b]⟩ [1] [1] [0] [0] [] [])
    (d : DotDims ⟨2, ![a, n]⟩ ⟨2, ![b, n]⟩ ⟨2, ![a, b]⟩) (hd : d = rowsDims wf)
    (x : FVec Ideal ⟨2, ![a, n]⟩ φ₁) (w : FVec Ideal ⟨2, ![b, n]⟩ φ₂) (p : Fin a) (e : Fin b) :
    FloatOps.matmul d none x w (constant ⟨2, ![a, b]⟩ .f32 0x00000000#32) (ix2 p e)
      = ∑ k : Fin n, x (ix2 p k) * w (ix2 e k) := by
  subst hd
  exact (Ideal.matmul_constant_zero_apply (rowsDims wf) none x w (ix2 p e)).trans (contraction_rows wf x w p e)

end Cert.RowOps

end
-- ==== Proof.IVal1i.lean ====
/-
  The second launch's arithmetic read at an entry (p, e) of a 1024 × 1024 block, on the extended reals:
  the zero fill is 0; the accumulation step is the old entry plus the sum over the chunk's 1024 features k of
  x(p,k) · w(e,k) (both operands carry the feature index last); the final step adds the bias row's entry e.
-/
import proofs.«150503_j31207232372816_2_alg».proof.Proof.Gen.KernelIdeal.Skeleton
import proofs.«150503_j31207232372816_2_alg».proof.Proof.LibRowOpsFormats
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen
open Idealize.ShloMosaic Idealize.ShloMosaic.ValueIdx

/-- The zero fill. -/
theorem pay1_apply (y : S1024x1024.Idx) : k1_pay1 (F := Ideal) y = 0 := by
  unfold k1_pay1
  rw [shapeCast_self]
  exact Ideal.ofBits_zero_f32

/-- One accumulation step. -/
theorem pay2_apply (s : Vec Ideal S1024x1024 .f32) (x w : Vec Ideal S1024x1024 .bf16) (p e : Fin 1024) :
    k1_pay2 (F := Ideal) s x w (ix2 p e) = s (ix2 p e) + ∑ k : Fin 1024, x (ix2 p k) * w (ix2 e k) := by
  unfold k1_pay2
  simp only [shapeCast_self]
  refine (addf_apply _ _ _).trans ?_
  exact congrArg (s (ix2 p e) + ·) (Cert.RowOps.rows_matmul Facts₀.dot_S1024x1024_S1024x1024_S1024x1024_1_1_0_0_n_n_wf dot_S1024x1024_S1024x1024_S1024x1024_1_1_0_0_n_n rfl x w p e)

/-- The final step: the bias row is laid along the rows of the block. -/
theorem pay3_apply (s : Vec Ideal S1024x1024 .f32) (b : Vec Ideal S1x1024 .f32) (p e : Fin 1024) :
    k1_pay3 (F := Ideal) s b (ix2 p e) = s (ix2 p e) + b (ix2 (0 : Fin 1) e) := by
  unfold k1_pay3
  simp only [shapeCast_self]
  refine (addf_apply _ _ _).trans ?_
  exact congrArg (s (ix2 p e) + ·) (broadcastTo_1b_ab_apply b _ p e)

end Cert.KernelIdeal.Hand

end
-- ==== Proof.LibChunkedSum.lean ====
/-
  A long sum cut into equal chunks.

  In any commutative monoid (no subtraction, no finiteness: the extended reals qualify) a sum over the first a*b
  naturals is the sum, over the a chunks s, of the sum over the b positions j inside chunk s of the term at s*b + j.
  Only associativity and commutativity of addition are used, so the regrouping holds whatever the summands are.
-/
import Mathlib.Algebra.BigOperators.Fin
import Mathlib.Algebra.BigOperators.Intervals

open Finset

namespace Cert.ChunkedSum

variable {β : Type*} [AddCommMonoid β]

/-- A sum over `range (a*b)` is the sum over the chunk number of the sums over the positions inside a chunk. -/
theorem sum_range_chunks (a b : ℕ) (f : ℕ → β) :
    ∑ h ∈ range (a * b), f h = ∑ s ∈ range a, ∑ j ∈ range b, f (s * b + j) := by
  induction a with
  | zero => simp
  | succ a ih => rw [Nat.succ_mul, Finset.sum_range_add, ih, Finset.sum_range_succ]

/-- The same with the long sum and the inner sums over `Fin`. -/
theorem sum_fin_chunks (a b : ℕ) (f : ℕ → β) :
    ∑ h : Fin (a * b), f h.val = ∑ s ∈ range a, ∑ j : Fin b, f (s * b + j.val) := by
  rw [Fin.sum_univ_eq_sum_range (fun h => f h) (a * b), sum_range_chunks]
  refine Finset.sum_congr rfl fun s _ => ?_
  rw [Fin.sum_univ_eq_sum_range (fun j => f (s * b + j)) b]

/-- A function on `Fin n` extended by zero to every natural. -/
def ext0 {n : ℕ} (g : Fin n → β) (k : ℕ) : β := if h : k < n then g ⟨k, h⟩ else 0

theorem ext0_val {n : ℕ} (g : Fin n → β) (h : Fin n) : ext0 g h.val = g h := by
  unfold ext0; rw [dif_pos h.isLt]

/-- A sum over `Fin (a*b)` of any function is the sum over the chunks of the chunk sums of its extension. -/
theorem sum_chunks_ext0 (a b : ℕ) (g : Fin (a * b) → β) :
    ∑ h : Fin (a * b), g h = ∑ s ∈ range a, ∑ j : Fin b, ext0 g (s * b + j.val) := by
  rw [← sum_fin_chunks a b (ext0 g)]
  exact Finset.sum_congr rfl fun h _ => (ext0_val g h).symm

end Cert.ChunkedSum
-- ==== Proof.IVal1.lean ====
/-
  The second launch's result as one function of its three operand arrays X (activations, 8192 × 4096),
  Q (quantised weights, 16384 × 4096) and B (the bias as one row, 1 × 16384).

  The point at position n has block row n / 64 of X, block row (n / 4) mod 16 of Q and feature chunk n mod 4.
  By induction on n, after the point the accumulator's entry (p, e) is the sum over the chunks s ≤ n mod 4 and the
  1024 features kk of a chunk of X(row, 1024·s + kk) · Q(col, 1024·s + kk): the chunk's product is added to zero
  where n mod 4 = 0 and to the point before otherwise (same rows, same columns, one chunk fewer).  Where
  n mod 4 = 3 all four chunks are in, the four chunk sums are the one sum over the 4096 features, the bias entry
  is added, and the block (n / 64, (n / 4) mod 16) of the result is written back.  Those 128 blocks tile the result.
  Sums are only regrouped (addition of extended reals is associative and commutative): no finiteness is needed.
-/
import proofs.«150503_j31207232372816_2_alg».proof.Proof.IVal1p
import proofs.«150503_j31207232372816_2_alg».proof.Proof.IVal1i
import proofs.«150503_j31207232372816_2_alg».proof.Proof.LibChunkedSum

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (V : (c : Dev nD) → (b : Ref sig .tc) → Buf (Elt Ideal) ((c : Thread nD τ).loc b))

/-! ## The operand arrays as the launch finds them -/

def Xa (c : Dev nD) : (⟨2, ![8192, 4096]⟩ : Shape).Idx → EReal := V c main_v1
def Wa (c : Dev nD) : (⟨2, ![16384, 4096]⟩ : Shape).Idx → EReal := V c main_v0
def Ba (c : Dev nD) : (⟨2, ![1, 16384]⟩ : Shape).Idx → EReal := V c main_v2

/-- The same two matrices on all pairs of naturals (zero outside), so that rows and features can be written as
    block · 1024 + offset without carrying bounds. -/
def Xn (c : Dev nD) (r k : ℕ) : EReal := if h : r < 8192 ∧ k < 4096 then Xa V c (ix2 ⟨r, h.1⟩ ⟨k, h.2⟩) else 0
def Wn (c : Dev nD) (r k : ℕ) : EReal := if h : r < 16384 ∧ k < 4096 then Wa V c (ix2 ⟨r, h.1⟩ ⟨k, h.2⟩) else 0

/-- The result: out(P, E) = Σ_k X(P,k) · Q(E,k) + B(0,E). -/
def Gk (c : Dev nD) : (⟨2, ![8192, 16384]⟩ : Shape).Idx → EReal :=
  fun i => (∑ k : Fin 4096, Xa V c (ix2 (i 0) k) * Wa V c (ix2 (i 1) k)) + Ba V c (ix2 (0 : Fin 1) (i 1))

/-- The first r chunks of the contraction at row P, column E. -/
def part (c : Dev nD) (P E r : ℕ) : EReal :=
  ∑ s ∈ Finset.range r, ∑ kk : Fin 1024, Xn V c P (s * 1024 + kk.val) * Wn V c E (s * 1024 + kk.val)

theorem part_succ (c : Dev nD) (P E r : ℕ) :
    part V c P E (r + 1) = part V c P E r + ∑ kk : Fin 1024, Xn V c P (r * 1024 + kk.val) * Wn V c E (r * 1024 + kk.val) :=
  Finset.sum_range_succ _ _

theorem part_one (c : Dev nD) (P E : ℕ) :
    part V c P E 1 = ∑ kk : Fin 1024, Xn V c P (0 * 1024 + kk.val) * Wn V c E (0 * 1024 + kk.val) := by
  unfold part; rw [Finset.sum_range_one]

/-- Four chunks are the whole contraction. -/
theorem part_four (c : Dev nD) (P : Fin 8192) (E : Fin 16384) :
    part V c P.val E.val 4 = ∑ k : Fin 4096, Xa V c (ix2 P k) * Wa V c (ix2 E k) := by
  unfold part
  rw [← Cert.ChunkedSum.sum_fin_chunks 4 1024 (fun k => Xn V c P.val k * Wn V c E.val k)]
  refine Finset.sum_congr rfl fun k _ => ?_
  have hk : k.val < 4096 := k.isLt
  unfold Xn Wn
  rw [dif_pos ⟨P.isLt, hk⟩, dif_pos ⟨E.isLt, hk⟩]

/-! ## The block indices over the grid, and the blocks read at an entry -/

theorem idx_facts1 : ∀ t : Fin cfg1.N,
    win1_0.index t (0 : Fin 2) = t.val / 64 ∧ win1_0.index t (1 : Fin 2) = t.val % 4
    ∧ win1_1.index t (0 : Fin 2) = t.val / 4 % 16 ∧ win1_1.index t (1 : Fin 2) = t.val % 4
    ∧ win1_2.index t (0 : Fin 2) = 0 ∧ win1_2.index t (1 : Fin 2) = t.val / 4 % 16
    ∧ win1_3.index t (0 : Fin 2) = t.val / 64 ∧ win1_3.index t (1 : Fin 2) = t.val / 4 % 16 :=
  (by decide +kernel : ∀ t : Fin grid1.N, _)

theorem lt_512 (t : Fin cfg1.N) : t.val < 512 := lt_of_lt_of_eq t.isLt (show cfg1.N = 512 from N_1)

/-- The activations' block at a point: rows bi·1024 + p, features bk·1024 + k. -/
theorem blk0_apply (c : Dev nD) (t : Fin cfg1.N) (bi bk : ℕ) (hi : t.val / 64 = bi) (hk : t.val % 4 = bk) (p k : Fin 1024) :
    (iblk1 V c 0 t (ix2 p k) : EReal) = Xn V c (bi * 1024 + p.val) (bk * 1024 + k.val) := by
  obtain ⟨e0, e1, -⟩ := idx_facts1 t
  have ht := lt_512 t
  have hp : p.val < 1024 := p.isLt
  have hk' : k.val < 1024 := k.isLt
  have hP : bi * 1024 + p.val < 8192 ∧ bk * 1024 + k.val < 4096 := by omega
  unfold Xn; rw [dif_pos hP]
  show V c main_v1 (((cfg1.win 0).blk t).view.emb (ix2 p k)) = V c main_v1 (ix2 ⟨_, hP.1⟩ ⟨_, hP.2⟩)
  refine congrArg (V c main_v1) ?_
  funext a; apply Fin.ext
  match a with
  | ⟨0, _⟩ => show win1_0.index t (0 : Fin 2) * 1024 + 1 * p.val = bi * 1024 + p.val; omega
  | ⟨1, _⟩ => show win1_0.index t (1 : Fin 2) * 1024 + 1 * k.val = bk * 1024 + k.val; omega

/-- The quantised weights' block at a point: rows bj·1024 + e, features bk·1024 + k. -/
theorem blk1_apply (c : Dev nD) (t : Fin cfg1.N) (bj bk : ℕ) (hj : t.val / 4 % 16 = bj) (hk : t.val % 4 = bk) (e k : Fin 1024) :
    (iblk1 V c 1 t (ix2 e k) : EReal) = Wn V c (bj * 1024 + e.val) (bk * 1024 + k.val) := by
  obtain ⟨-, -, e2, e3, -⟩ := idx_facts1 t
  have ht := lt_512 t
  have he : e.val < 1024 := e.isLt
  have hk' : k.val < 1024 := k.isLt
  have hP : bj * 1024 + e.val < 16384 ∧ bk * 1024 + k.val < 4096 := by omega
  unfold Wn; rw [dif_pos hP]
  show V c main_v0 (((cfg1.win 1).blk t).view.emb (ix2 e k)) = V c main_v0 (ix2 ⟨_, hP.1⟩ ⟨_, hP.2⟩)
  refine congrArg (V c main_v0) ?_
  funext a; apply Fin.ext
  match a with
  | ⟨0, _⟩ => show win1_1.index t (0 : Fin 2) * 1024 + 1 * e.val = bj * 1024 + e.val; omega
  | ⟨1, _⟩ => show win1_1.index t (1 : Fin 2) * 1024 + 1 * k.val = bk * 1024 + k.val; omega

/-- The bias row's block at a point: entries bj·1024 + e. -/
theorem blk2_apply (c : Dev nD) (t : Fin cfg1.N) (e : Fin 1024) (hE : t.val / 4 % 16 * 1024 + e.val < 16384) :
    (iblk1 V c 2 t (ix2 (0 : Fin 1) e) : EReal) = Ba V c (ix2 (0 : Fin 1) ⟨t.val / 4 % 16 * 1024 + e.val, hE⟩) := by
  obtain ⟨-, -, -, -, e4, e5, -⟩ := idx_facts1 t
  show V c main_v2 (((cfg1.win 2).blk t).view.emb (ix2 (0 : Fin 1) e)) = V c main_v2 (ix2 (0 : Fin 1) ⟨_, hE⟩)
  refine congrArg (V c main_v2) ?_
  funext a; apply Fin.ext
  match a with
  | ⟨0, _⟩ => show win1_2.index t (0 : Fin 2) * 1 + 1 * 0 = 0; omega
  | ⟨1, _⟩ => show win1_2.index t (1 : Fin 2) * 1024 + 1 * e.val = t.val / 4 % 16 * 1024 + e.val; omega

/-! ## The accumulator after each point -/

theorem acc_eq (c : Dev nD) : ∀ (n : ℕ) (hn : n < cfg1.N) (p e : Fin 1024),
    ((outsAt1 V c n hn).2 (ix2 p e) : EReal) = part V c (n / 64 * 1024 + p.val) (n / 4 % 16 * 1024 + e.val) (n % 4 + 1) := by
  intro n
  induction n with
  | zero =>
    intro hn p e
    rw [outsAt1_A V c ⟨0, hn⟩ rfl (show ¬(0 : ℕ) % 4 = 3 by decide)]
    dsimp only
    rw [sout1_A_0_eq, pay2_apply, pay1_apply, zero_add, show (0 % 4 + 1) = 1 from rfl, part_one]
    refine Finset.sum_congr rfl fun kk _ => ?_
    rw [blk0_apply V c ⟨0, hn⟩ (0 / 64) 0 rfl rfl p kk, blk1_apply V c ⟨0, hn⟩ (0 / 4 % 16) 0 rfl rfl e kk]
  | succ m ih =>
    intro hn p e
    have hm : m + 1 < 512 := lt_of_lt_of_eq hn (show cfg1.N = 512 from N_1)
    by_cases h0 : (m + 1) % 4 = 0
    · have h1 : ¬(m + 1) % 4 = 3 := by omega
      rw [outsAt1_A V c ⟨m + 1, hn⟩ h0 h1]
      dsimp only
      rw [sout1_A_0_eq, pay2_apply, pay1_apply, zero_add, h0, part_one]
      refine Finset.sum_congr rfl fun kk _ => ?_
      rw [blk0_apply V c ⟨m + 1, hn⟩ ((m + 1) / 64) 0 rfl h0 p kk, blk1_apply V c ⟨m + 1, hn⟩ ((m + 1) / 4 % 16) 0 rfl h0 e kk]
    · have e1 : (m + 1) / 64 = m / 64 := by omega
      have e2 : (m + 1) / 4 % 16 = m / 4 % 16 := by omega
      have e3 : (m + 1) % 4 = m % 4 + 1 := by omega
      have hprev := ih (Nat.lt_of_succ_lt hn) p e
      have hstep : ∀ xs : Vec Ideal S1024x1024 .f32, (xs (ix2 p e) : EReal) = part V c (m / 64 * 1024 + p.val) (m / 4 % 16 * 1024 + e.val) (m % 4 + 1) →
          (k1_pay2 (F := Ideal) xs (iblk1 V c 0 ⟨m + 1, hn⟩) (iblk1 V c 1 ⟨m + 1, hn⟩) (ix2 p e) : EReal)
            = part V c ((m + 1) / 64 * 1024 + p.val) ((m + 1) / 4 % 16 * 1024 + e.val) ((m + 1) % 4 + 1) := by
        intro xs hxs
        rw [pay2_apply, hxs, e1, e2, e3, part_succ V c _ _ (m % 4 + 1)]
        refine congrArg (part V c (m / 64 * 1024 + p.val) (m / 4 % 16 * 1024 + e.val) (m % 4 + 1) + ·) ?_
        refine Finset.sum_congr rfl fun kk _ => ?_
        rw [blk0_apply V c ⟨m + 1, hn⟩ (m / 64) (m % 4 + 1) e1 e3 p kk, blk1_apply V c ⟨m + 1, hn⟩ (m / 4 % 16) (m % 4 + 1) e2 e3 e kk]
      by_cases h1 : (m + 1) % 4 = 3
      · rw [outsAt1_C V c ⟨m + 1, hn⟩ h0 h1]
        dsimp only
        rw [sout1_C_0_eq]
        exact hstep _ hprev
      · rw [outsAt1_B V c ⟨m + 1, hn⟩ h0 h1]
        dsimp only
        rw [sout1_B_0_eq]
        exact hstep _ hprev

/-! ## What is written back, and the whole result -/

/-- What a point with n mod 4 = 3 writes back is its block of the result. -/
theorem flushed1_eq (c : Dev nD) (t : Fin cfg1.N) (hf : (cfg1.win 3).flush t = true) :
    (dat1 (F := Ideal) V c).flushed 3 t = ((cfg1.win 3).blk t).view.read (Elt Ideal) (Gk V c) := by
  have h1 : t.val % 4 = 3 := (flush1_3 t).mp hf
  have h0 : ¬t.val % 4 = 0 := by omega
  have ht := lt_512 t
  obtain ⟨-, -, -, -, -, -, e6, e7⟩ := idx_facts1 t
  show (cfg1.win 3).cut (grid1.coords t) ((dat1 V c).after 3 t) = _
  rw [after1_3, outsAt1_C V c t h0 h1]
  dsimp only
  rw [out1_C_3_eq]
  refine funext fun (j : S1024x1024.Idx) => ?_
  obtain ⟨p, e, rfl⟩ : ∃ (p : Fin 1024) (e : Fin 1024), j = ix2 p e := ⟨j 0, j 1, eq_ix2 j⟩
  have hp : p.val < 1024 := p.isLt
  have he : e.val < 1024 := e.isLt
  have hP : t.val / 64 * 1024 + p.val < 8192 := by omega
  have hE : t.val / 4 % 16 * 1024 + e.val < 16384 := by omega
  have hemb : ((cfg1.win 3).blk t).view.emb (ix2 p e) = (ix2 (⟨_, hP⟩ : Fin 8192) (⟨_, hE⟩ : Fin 16384) : (⟨2, ![8192, 16384]⟩ : Shape).Idx) := by
    funext a; apply Fin.ext
    match a with
    | ⟨0, _⟩ => show win1_3.index t (0 : Fin 2) * 1024 + 1 * p.val = t.val / 64 * 1024 + p.val; omega
    | ⟨1, _⟩ => show win1_3.index t (1 : Fin 2) * 1024 + 1 * e.val = t.val / 4 % 16 * 1024 + e.val; omega
  show (k1_pay3 (F := Ideal) _ _ (ix2 p e) : EReal) = Gk V c (((cfg1.win 3).blk t).view.emb (ix2 p e))
  rw [hemb, pay3_apply]
  have hacc : ∀ xs : Vec Ideal S1024x1024 .f32, (xs (ix2 p e) : EReal) = part V c (t.val / 64 * 1024 + p.val) (t.val / 4 % 16 * 1024 + e.val) 3 →
      (k1_pay2 (F := Ideal) xs (iblk1 V c 0 t) (iblk1 V c 1 t) (ix2 p e) : EReal)
        = ∑ k : Fin 4096, Xa V c (ix2 (⟨_, hP⟩ : Fin 8192) k) * Wa V c (ix2 (⟨_, hE⟩ : Fin 16384) k) := by
    intro xs hxs
    rw [← part_four V c ⟨_, hP⟩ ⟨_, hE⟩, part_succ V c _ _ 3, pay2_apply, hxs]
    refine congrArg (part V c (t.val / 64 * 1024 + p.val) (t.val / 4 % 16 * 1024 + e.val) 3 + ·) ?_
    refine Finset.sum_congr rfl fun kk _ => ?_
    rw [blk0_apply V c t (t.val / 64) 3 rfl h1 p kk, blk1_apply V c t (t.val / 4 % 16) 3 rfl h1 e kk]
  have hprev := acc_eq V c (t.val - 1) (Nat.lt_of_le_of_lt (Nat.sub_le _ _) t.isLt) p e
  have f1 : (t.val - 1) / 64 = t.val / 64 := by omega
  have f2 : (t.val - 1) / 4 % 16 = t.val / 4 % 16 := by omega
  have f3 : (t.val - 1) % 4 + 1 = 3 := by omega
  rw [f1, f2, f3] at hprev
  rw [hacc _ hprev, blk2_apply V c t e hE]
  rfl

theorem mem_blk1 (t : Fin cfg1.N) (i : S8192x16384.Idx) :
    i ∈ ((cfg1.win 3).blk t).view.set ↔ ∀ a : Fin 2, win1_3.index t a * S1024x1024.size a ≤ (i a).val ∧ (i a).val < win1_3.index t a * S1024x1024.size a + S1024x1024.size a := by
  show i ∈ ((View.whole main_v3).slice (win1_3.rect t)).set ↔ _
  rw [View.set_slice_whole, Rect.mem_set_unit]
  exact Iff.rfl

/-- Every entry (P, E) of the result is in the block written back at position 64·(P / 1024) + 4·(E / 1024) + 3. -/
theorem cover1 (i : S8192x16384.Idx) : ∃ t : Fin cfg1.N, (cfg1.win 3).flush t = true ∧ i ∈ ((cfg1.win 3).blk t).view.set := by
  have hi0 : (i 0).val < 8192 := (i 0).isLt
  have hi1 : (i 1).val < 16384 := (i 1).isLt
  have hN : cfg1.N = 512 := N_1
  have ht : (i 0).val / 1024 * 64 + (i 1).val / 1024 * 4 + 3 < cfg1.N := by rw [hN]; omega
  refine ⟨⟨(i 0).val / 1024 * 64 + (i 1).val / 1024 * 4 + 3, ht⟩, (flush1_3 _).mpr (by show ((i 0).val / 1024 * 64 + (i 1).val / 1024 * 4 + 3) % 4 = 3; omega), ?_⟩
  rw [mem_blk1]
  obtain ⟨-, -, -, -, -, -, e6, e7⟩ := idx_facts1 ⟨(i 0).val / 1024 * 64 + (i 1).val / 1024 * 4 + 3, ht⟩
  have e6' : win1_3.index ⟨(i 0).val / 1024 * 64 + (i 1).val / 1024 * 4 + 3, ht⟩ (0 : Fin 2) = ((i 0).val / 1024 * 64 + (i 1).val / 1024 * 4 + 3) / 64 := e6
  have e7' : win1_3.index ⟨(i 0).val / 1024 * 64 + (i 1).val / 1024 * 4 + 3, ht⟩ (1 : Fin 2) = ((i 0).val / 1024 * 64 + (i 1).val / 1024 * 4 + 3) / 4 % 16 := e7
  intro a
  match a with
  | ⟨0, _⟩ => show win1_3.index ⟨(i 0).val / 1024 * 64 + (i 1).val / 1024 * 4 + 3, ht⟩ (0 : Fin 2) * 1024 ≤ (i 0).val ∧ (i 0).val < win1_3.index ⟨(i 0).val / 1024 * 64 + (i 1).val / 1024 * 4 + 3, ht⟩ (0 : Fin 2) * 1024 + 1024; omega
  | ⟨1, _⟩ => show win1_3.index ⟨(i 0).val / 1024 * 64 + (i 1).val / 1024 * 4 + 3, ht⟩ (1 : Fin 2) * 1024 ≤ (i 1).val ∧ (i 1).val < win1_3.index ⟨(i 0).val / 1024 * 64 + (i 1).val / 1024 * 4 + 3, ht⟩ (1 : Fin 2) * 1024 + 1024; omega

/-- After the second launch the result array is `Gk` of the operand arrays as the launch found them. -/
theorem final1 (c : Dev nD) : (dat1 (F := Ideal) V c).arrAt 3 cfg1.N = Gk V c :=
  (dat1 V c).arrAt_eq_of_cover 3 (Gk V c) (fun t hf => flushed1_eq V c t hf) cover1

end Cert.KernelIdeal.Hand

end
-- ==== Proof.IValue.lean ====
/-
  The kernel program's result in terms of its three arguments.  When the second launch is entered its operand
  arrays are: the activations unchanged (the host's change of format is the identity on the extended reals), the
  quantised matrix the first launch left — the ternary image of every weight entry —, and the bias vector laid out
  as one row.  Substituting them in the second launch's result gives the specification's function of the arguments.
-/
import proofs.«150503_j31207232372816_2_alg».proof.Proof.IRun
import proofs.«150503_j31207232372816_2_alg».proof.Proof.IVal0
import proofs.«150503_j31207232372816_2_alg».proof.Proof.IVal1
import proofs.«150503_j31207232372816_2_alg».proof.Proof.Spec
import Idealize.ShloMosaic.Lib.StableHlo.Run
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx Idealize.ShloMosaic.StableHlo

variable (m : (ℓ : Loc nD τ sig) → Buf (Elt Ideal) ℓ) (ρ : Dev nD → PrngReg)

/-! ## The two host lines, from any contents -/

theorem stage_v1 (Vv : Valuation τ sig (Elt Ideal)) (i : (⟨2, ![8192, 4096]⟩ : Shape).Idx) :
    ((after hostOps1 Vv (Proc.devRef .tc main_v1) : (⟨2, ![8192, 4096]⟩ : Shape).Idx → EReal) i)
      = (Vv (Proc.devRef .tc main_arg0) : (⟨2, ![8192, 4096]⟩ : Shape).Idx → EReal) i := by
  after_results
  rfl

theorem stage_v2 (Vv : Valuation τ sig (Elt Ideal)) :
    (after hostOps1 Vv (Proc.devRef .tc main_v2) : (⟨2, ![1, 16384]⟩ : Shape).Idx → EReal)
      = shapeCast S1x16384 (Vv (Proc.devRef .tc main_arg2) : (⟨1, ![16384]⟩ : Shape).Idx → EReal) shapeCasts_S16384_S1x16384 := by
  after_results
  rfl

theorem stage_v0 (Vv : Valuation τ sig (Elt Ideal)) :
    after hostOps1 Vv (Proc.devRef .tc main_v0) = Vv (Proc.devRef .tc main_v0) := by
  after_results

/-! ## The operand arrays at the second launch's entry -/

theorem Xa_eq (c : Dev nD) (i : (⟨2, ![8192, 4096]⟩ : Shape).Idx) :
    Xa (V2 m ρ) c i = m ((c : Thread nD τ).loc main_arg0) i := by
  show after hostOps1 (W1 m ρ c) (Proc.devRef .tc main_v1) i = _
  rw [stage_v1, W1_of_ne m ρ c main_arg0 (by decide)]
  try rfl

theorem Wa_eq (c : Dev nD) (i : (⟨2, ![16384, 4096]⟩ : Shape).Idx) :
    Wa (V2 m ρ) c i = Cert.Spec.tern (m ((c : Thread nD τ).loc main_arg1) i) := by
  show after hostOps1 (W1 m ρ c) (Proc.devRef .tc main_v0) i = _
  rw [stage_v0, W1_arr m ρ c 1, final0]
  try rfl

theorem Ba_eq (c : Dev nD) (E : Fin 16384) :
    Ba (V2 m ρ) c (ix2 (0 : Fin 1) E) = m ((c : Thread nD τ).loc main_arg2) (ix1 E) := by
  show after hostOps1 (W1 m ρ c) (Proc.devRef .tc main_v2) (ix2 (0 : Fin 1) E) = _
  rw [stage_v2, shapeCast_a_1a_apply, W1_of_ne m ρ c main_arg2 (by decide)]
  try rfl

/-- The result array after the run is the specification's function of the three arguments. -/
theorem result_eq (c : Dev nD) :
    (dat1 (F := Ideal) (V2 m ρ) c).arrAt 3 cfg1.N
      = Cert.Spec.G (m ((c : Thread nD τ).loc main_arg0)) (m ((c : Thread nD τ).loc main_arg1)) (m ((c : Thread nD τ).loc main_arg2)) := by
  rw [final1]
  funext i
  obtain ⟨r, e, rfl⟩ : ∃ (r : Fin 8192) (e : Fin 16384), i = ix2 r e := ⟨i 0, i 1, eq_ix2 i⟩
  rw [Cert.Spec.G_apply]
  show (∑ k : Fin 4096, Xa (V2 m ρ) c (ix2 r k) * Wa (V2 m ρ) c (ix2 e k)) + Ba (V2 m ρ) c (ix2 (0 : Fin 1) e) = _
  rw [Ba_eq]
  refine congrArg₂ (· + ·) (Finset.sum_congr rfl fun k _ => ?_) rfl
  rw [Xa_eq, Wa_eq]

/-- The kernel program's run: the result is the specification's function of the arguments, which end unchanged. -/
theorem run_spec : θ_run defs (onTc (τ := τ) (main (F := Ideal))) ⟨m, fun _ => 0, ρ⟩ (fun r => ∀ c : Dev nD,
      r.2.mem ((c.tc : Thread nD τ).loc main_v3) = Cert.Spec.G (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans (result_eq m ρ c), (h c).2⟩) (run_value m ρ)

end Cert.KernelIdeal.Hand

end
-- ==== Proof.LibERealSums.lean ====
/-
  General facts about finite sums of extended reals.

  An extended real is FINITE when it is neither `⊥` nor `⊤`, that is, when it is a real number. The finite extended
  reals are closed under `+`, `-`, `*` and finite sums, and on them `x - x = 0` (which fails at the infinities:
  `⊤ - ⊤ = ⊥`). The hyperbolic tangent of the extended reals (`tanh ⊥ = -1`, `tanh ⊤ = 1`) is finite everywhere.

  A product of two matrices computed as  a·b + a·(b - b) + (a - a)·b  is therefore  a·b  on finite entries
  (`three_pass`); a running total that starts from its first term and adds one term per step is the sum of the
  terms (`acc_eq_sum`); a sum over `Fin (a * b)` is the sum over `a` blocks of `b` consecutive indices
  (`sum_blocks…`); and a sum over `Fin 128` is the sum over its lower and upper halves (`sum_halves`).
-/
import Idealize.ShloMosaic.PureOps.Ideal
import Mathlib.Algebra.BigOperators.Fin
import Mathlib.Logic.Equiv.Fin.Basic

noncomputable section

open scoped BigOperators

namespace Cert.LibERealSums

open Idealize.ShloMosaic

/-! ## Finite extended reals -/

/-- An extended real is finite when it is neither infinity. -/
def IsFin (x : EReal) : Prop := x ≠ ⊥ ∧ x ≠ ⊤

/-- A real number, seen as an extended real, is finite. -/
theorem isFin_coe (r : ℝ) : IsFin (r : EReal) := ⟨EReal.coe_ne_bot r, EReal.coe_ne_top r⟩

/-- A finite extended real is a real number. -/
theorem IsFin.exists_coe {x : EReal} (h : IsFin x) : ∃ r : ℝ, x = (r : EReal) := by
  lift x to ℝ using ⟨h.2, h.1⟩
  exact ⟨x, rfl⟩

/-- Zero is finite. -/
theorem isFin_zero : IsFin 0 := by
  rw [← EReal.coe_zero]; exact isFin_coe 0

/-- One is finite. -/
theorem isFin_one : IsFin 1 := by
  rw [← EReal.coe_one]; exact isFin_coe 1

/-- The sum of two finite extended reals is finite. -/
theorem IsFin.add {x y : EReal} (hx : IsFin x) (hy : IsFin y) : IsFin (x + y) := by
  obtain ⟨r, rfl⟩ := hx.exists_coe
  obtain ⟨s, rfl⟩ := hy.exists_coe
  rw [← EReal.coe_add]; exact isFin_coe _

/-- The product of two finite extended reals is finite. -/
theorem IsFin.mul {x y : EReal} (hx : IsFin x) (hy : IsFin y) : IsFin (x * y) := by
  obtain ⟨r, rfl⟩ := hx.exists_coe
  obtain ⟨s, rfl⟩ := hy.exists_coe
  rw [← EReal.coe_mul]; exact isFin_coe _

/-- The negation of a finite extended real is finite. -/
theorem IsFin.neg {x : EReal} (hx : IsFin x) : IsFin (-x) := by
  obtain ⟨r, rfl⟩ := hx.exists_coe
  rw [← EReal.coe_neg]; exact isFin_coe _

/-- The difference of two finite extended reals is finite. -/
theorem IsFin.sub {x y : EReal} (hx : IsFin x) (hy : IsFin y) : IsFin (x - y) := by
  obtain ⟨r, rfl⟩ := hx.exists_coe
  obtain ⟨s, rfl⟩ := hy.exists_coe
  rw [← EReal.coe_sub]; exact isFin_coe _

/-- A finite extended real minus itself is zero. (At an infinity it is not: `⊤ - ⊤ = ⊥`.) -/
theorem sub_self_of_isFin {x : EReal} (hx : IsFin x) : x - x = 0 := by
  obtain ⟨r, rfl⟩ := hx.exists_coe
  rw [← EReal.coe_sub, sub_self, EReal.coe_zero]

/-- A sum of finite extended reals over a finite set is finite. -/
theorem isFin_sum {ι : Type*} (s : Finset ι) (f : ι → EReal) (h : ∀ i ∈ s, IsFin (f i)) : IsFin (∑ i ∈ s, f i) :=
  Finset.sum_induction f IsFin (fun _ _ => IsFin.add) isFin_zero h

/-- A sum of finite extended reals over a finite type is finite. -/
theorem isFin_sum_univ {ι : Type*} [Fintype ι] (f : ι → EReal) (h : ∀ i, IsFin (f i)) : IsFin (∑ i, f i) :=
  isFin_sum Finset.univ f fun i _ => h i

/-- A finite sum of products of finite extended reals is finite. -/
theorem isFin_sum_mul {ι : Type*} [Fintype ι] (a b : ι → EReal) (ha : ∀ i, IsFin (a i)) (hb : ∀ i, IsFin (b i)) :
    IsFin (∑ i, a i * b i) :=
  isFin_sum_univ _ fun i => (ha i).mul (hb i)

/-- The hyperbolic tangent of an extended real is finite, at the infinities too (`tanh ⊥ = -1`, `tanh ⊤ = 1`). -/
theorem isFin_tanh (x : EReal) : IsFin (Ideal.tanh x) := by
  induction x using EReal.rec with
  | bot => rw [Ideal.tanh_bot]; exact isFin_one.neg
  | top => rw [Ideal.tanh_top]; exact isFin_one
  | coe r => rw [Ideal.tanh_coe]; exact isFin_coe _

/-! ## A product in three passes -/

/-- A sum of products whose second factors are all zero is zero. -/
theorem sum_mul_zero {ι : Type*} (s : Finset ι) (a : ι → EReal) : ∑ l ∈ s, a l * 0 = 0 :=
  Finset.sum_eq_zero fun _ _ => mul_zero _

/-- A sum of products whose first factors are all zero is zero. -/
theorem sum_zero_mul {ι : Type*} (s : Finset ι) (b : ι → EReal) : ∑ l ∈ s, 0 * b l = 0 :=
  Finset.sum_eq_zero fun _ _ => zero_mul _

/-- With finite second factors, `∑ a · (b - b) = 0` (whatever the first factors are: `a · 0 = 0`). -/
theorem sum_mul_sub_self {ι : Type*} (s : Finset ι) (a b : ι → EReal) (hb : ∀ l, IsFin (b l)) :
    ∑ l ∈ s, a l * (b l - b l) = 0 :=
  Finset.sum_eq_zero fun l _ => by rw [sub_self_of_isFin (hb l), mul_zero]

/-- With finite first factors, `∑ (a - a) · b = 0` (whatever the second factors are: `0 · b = 0`). -/
theorem sum_sub_self_mul {ι : Type*} (s : Finset ι) (a b : ι → EReal) (ha : ∀ l, IsFin (a l)) :
    ∑ l ∈ s, (a l - a l) * b l = 0 :=
  Finset.sum_eq_zero fun l _ => by rw [sub_self_of_isFin (ha l), zero_mul]

/-- THE THREE-PASS PRODUCT: for finite factors,  `∑ a·b + ∑ a·(b - b) + ∑ (a - a)·b = ∑ a·b`. -/
theorem three_pass {ι : Type*} [Fintype ι] (a b : ι → EReal) (ha : ∀ l, IsFin (a l)) (hb : ∀ l, IsFin (b l)) :
    ((∑ l, a l * b l) + (∑ l, a l * (b l - b l))) + (∑ l, (a l - a l) * b l) = ∑ l, a l * b l := by
  rw [sum_mul_sub_self _ a b hb, sum_sub_self_mul _ a b ha, add_zero, add_zero]

/-- The three-pass product with the two correction sums already written over zero factors. -/
theorem three_pass_zero {ι : Type*} [Fintype ι] (a b : ι → EReal) :
    ((∑ l, a l * b l) + (∑ l, a l * 0)) + (∑ l, 0 * b l) = ∑ l, a l * b l := by
  rw [sum_mul_zero, sum_zero_mul, add_zero, add_zero]

/-- The three-pass product with each pass added to a leading zero (a product accumulated into a zero total). -/
theorem three_pass_zero_add {ι : Type*} [Fintype ι] (a b : ι → EReal) (ha : ∀ l, IsFin (a l)) (hb : ∀ l, IsFin (b l)) :
    ((0 + ∑ l, a l * b l) + (0 + ∑ l, a l * (b l - b l))) + (0 + ∑ l, (a l - a l) * b l) = ∑ l, a l * b l := by
  rw [zero_add, zero_add, zero_add, three_pass a b ha hb]

/-- TWO THREE-PASS PRODUCTS ADDED IN ONE CHAIN: for finite factors,
    `((((∑ a·b + ∑ a·(b - b)) + ∑ (a - a)·b) + ∑ c·d) + ∑ c·(d - d)) + ∑ (c - c)·d = ∑ a·b + ∑ c·d`. -/
theorem six_pass {ι κ : Type*} [Fintype ι] [Fintype κ] (a b : ι → EReal) (c d : κ → EReal)
    (ha : ∀ l, IsFin (a l)) (hb : ∀ l, IsFin (b l)) (hc : ∀ l, IsFin (c l)) (hd : ∀ l, IsFin (d l)) :
    (((((∑ l, a l * b l) + (∑ l, a l * (b l - b l))) + (∑ l, (a l - a l) * b l)) + (∑ l, c l * d l))
        + (∑ l, c l * (d l - d l))) + (∑ l, (c l - c l) * d l)
      = (∑ l, a l * b l) + (∑ l, c l * d l) := by
  rw [sum_mul_sub_self _ a b hb, sum_sub_self_mul _ a b ha, sum_mul_sub_self _ c d hd, sum_sub_self_mul _ c d hc,
    add_zero, add_zero, add_zero, add_zero]

/-! ## A running total is the sum of its terms -/

/-- A total that starts at `0 + t 0` and adds `t (k+1)` at step `k + 1` is, after step `n`, the sum of
    `t 0, …, t n`. -/
theorem acc_eq_sum (t acc : ℕ → EReal) (h0 : acc 0 = 0 + t 0) (hs : ∀ k, acc (k + 1) = acc k + t (k + 1)) (n : ℕ) :
    acc n = ∑ s ∈ Finset.range (n + 1), t s := by
  induction n with
  | zero => rw [h0, zero_add, Finset.sum_range_one]
  | succ k ih => rw [hs k, ih, Finset.sum_range_succ _ (k + 1)]

/-- The same for a total that starts at `t 0`. -/
theorem acc_eq_sum' (t acc : ℕ → EReal) (h0 : acc 0 = t 0) (hs : ∀ k, acc (k + 1) = acc k + t (k + 1)) (n : ℕ) :
    acc n = ∑ s ∈ Finset.range (n + 1), t s :=
  acc_eq_sum t acc (by rw [h0, zero_add]) hs n

/-- The same when the step rule is known only up to a last step `N`: the total after step `n ≤ N`. -/
theorem acc_eq_sum_le (t acc : ℕ → EReal) (N : ℕ) (h0 : acc 0 = 0 + t 0)
    (hs : ∀ k, k + 1 ≤ N → acc (k + 1) = acc k + t (k + 1)) (n : ℕ) (hn : n ≤ N) :
    acc n = ∑ s ∈ Finset.range (n + 1), t s := by
  induction n with
  | zero => rw [h0, zero_add, Finset.sum_range_one]
  | succ k ih => rw [hs k hn, ih (by omega), Finset.sum_range_succ _ (k + 1)]

/-- … and for a total that starts at `t 0`. -/
theorem acc_eq_sum_le' (t acc : ℕ → EReal) (N : ℕ) (h0 : acc 0 = t 0)
    (hs : ∀ k, k + 1 ≤ N → acc (k + 1) = acc k + t (k + 1)) (n : ℕ) (hn : n ≤ N) :
    acc n = ∑ s ∈ Finset.range (n + 1), t s :=
  acc_eq_sum_le t acc N (by rw [h0, zero_add]) hs n hn

/-- A running total of finite terms is finite. -/
theorem isFin_acc (t acc : ℕ → EReal) (h0 : acc 0 = 0 + t 0) (hs : ∀ k, acc (k + 1) = acc k + t (k + 1))
    (ht : ∀ s, IsFin (t s)) (n : ℕ) : IsFin (acc n) := by
  rw [acc_eq_sum t acc h0 hs n]; exact isFin_sum _ _ fun s _ => ht s

/-! ## A sum in blocks -/

/-- The index `s * b + l` of entry `l` of block `s` is below `a * b`. -/
theorem block_lt {a b : ℕ} (s : Fin a) (l : Fin b) : s.val * b + l.val < a * b := by
  have hs := s.isLt
  have hl := l.isLt
  calc s.val * b + l.val < s.val * b + b := Nat.add_lt_add_left hl _
    _ = (s.val + 1) * b := (Nat.succ_mul _ _).symm
    _ ≤ a * b := Nat.mul_le_mul_right _ hs

/-- A sum over `Fin (a * b)` is the sum over `a` blocks of `b` consecutive indices: block `s`, entry `l` is
    index `s * b + l`. -/
theorem sum_blocks_fin {M : Type*} [AddCommMonoid M] {a b : ℕ} (f : Fin (a * b) → M) :
    ∑ s : Fin a, ∑ l : Fin b, f ⟨s.val * b + l.val, block_lt s l⟩ = ∑ n, f n := by
  rw [← Equiv.sum_comp (finProdFinEquiv (m := a) (n := b)) f, Fintype.sum_prod_type]
  refine Finset.sum_congr rfl fun s _ => Finset.sum_congr rfl fun l _ => congrArg f (Fin.ext ?_)
  show s.val * b + l.val = l.val + b * s.val
  rw [Nat.mul_comm, Nat.add_comm]

/-- The same with the blocks counted by a natural number below `a`, for block terms `F s l` known to be `f` at
    index `s * b + l` whenever `s < a`. -/
theorem sum_blocks_range {M : Type*} [AddCommMonoid M] {a b : ℕ} (f : Fin (a * b) → M) (F : ℕ → Fin b → M)
    (hF : ∀ (s : ℕ) (hs : s < a) (l : Fin b), F s l = f ⟨s * b + l.val, block_lt ⟨s, hs⟩ l⟩) :
    ∑ s ∈ Finset.range a, ∑ l : Fin b, F s l = ∑ n, f n := by
  rw [← sum_blocks_fin f, ← Fin.sum_univ_eq_sum_range (fun s => ∑ l : Fin b, F s l) a]
  exact Finset.sum_congr rfl fun s _ => Finset.sum_congr rfl fun l _ => hF s.val s.isLt l

/-- 16 blocks of 1024: a sum over `Fin 16384` from its blocks, counted by `Fin 16`. -/
theorem sum_blocks_16_1024_fin {M : Type*} [AddCommMonoid M] (f : Fin 16384 → M) :
    ∑ s : Fin 16, ∑ l : Fin 1024, f ⟨s.val * 1024 + l.val, by have := s.isLt; have := l.isLt; omega⟩ = ∑ n, f n :=
  sum_blocks_fin (a := 16) (b := 1024) f

/-- 16 blocks of 1024: a sum over `Fin 16384` from block terms `F s l` known to be `f` at index `s * 1024 + l`
    whenever `s < 16`, the blocks counted by a natural number. -/
theorem sum_blocks_16_1024 {M : Type*} [AddCommMonoid M] (f : Fin 16384 → M) (F : ℕ → Fin 1024 → M)
    (hF : ∀ (s : ℕ) (hs : s < 16) (l : Fin 1024),
      F s l = f ⟨s * 1024 + l.val, by have := l.isLt; omega⟩) :
    ∑ s ∈ Finset.range 16, ∑ l : Fin 1024, F s l = ∑ n, f n :=
  sum_blocks_range (a := 16) (b := 1024) f F hF

/-- 16 blocks of 1024 with the index guarded by its bound: the form with no proof argument. -/
theorem sum_blocks_16_1024_dite {M : Type*} [AddCommMonoid M] (f : Fin 16384 → M) :
    ∑ s ∈ Finset.range 16, ∑ l : Fin 1024,
        (if h : s * 1024 + l.val < 16384 then f ⟨s * 1024 + l.val, h⟩ else 0) = ∑ n, f n :=
  sum_blocks_16_1024 f _ fun s hs l => dif_pos (by have := l.isLt; omega)

/-! ## A sum in halves -/

/-- A sum over `Fin 128` is the sum over indices `k < 64` plus the sum over indices `64 + k`, `k < 64`. -/
theorem sum_halves {M : Type*} [AddCommMonoid M] (f : Fin 128 → M) :
    ∑ k : Fin 128, f k
      = (∑ k : Fin 64, f ⟨k.val, by have := k.isLt; omega⟩) + (∑ k : Fin 64, f ⟨64 + k.val, by have := k.isLt; omega⟩) :=
  Fin.sum_univ_add (a := 64) (b := 64) f

/-! ## A finite sum times a constant -/

/-- For finite terms and a finite factor, `(∑ t) · w = ∑ t · w`. -/
theorem sum_mul_of_isFin {ι : Type*} (s : Finset ι) (t : ι → EReal) (w : EReal) (ht : ∀ l, IsFin (t l)) (hw : IsFin w) :
    (∑ l ∈ s, t l) * w = ∑ l ∈ s, t l * w := by
  obtain ⟨r, rfl⟩ := hw.exists_coe
  choose u hu using fun l => (ht l).exists_coe
  have hcoe : ∀ (g : ι → ℝ), (∑ l ∈ s, ((g l : ℝ) : EReal)) = ((∑ l ∈ s, g l : ℝ) : EReal) := by
    intro g
    classical
    induction s using Finset.induction_on with
    | empty => simp
    | insert i s hi ih => rw [Finset.sum_insert hi, Finset.sum_insert hi, EReal.coe_add, ih]
  simp only [hu, ← EReal.coe_mul]
  rw [hcoe, hcoe, ← EReal.coe_mul, Finset.sum_mul]

end Cert.LibERealSums

end
-- ==== Proof.RefTern.lean ====
/-
  The ternary image of an extended real is a real number, and the straight-through form is the image.

  The ternary image is one of the three float words 1, -1, 0, each a real number. For a real number v and a real
  number q, v + (q - v) = q (at an infinity it is not: with v = +infinity, q - v = -infinity and the sum is
  -infinity).
-/
import proofs.«150503_j31207232372816_2_alg».proof.Proof.Spec
import proofs.«150503_j31207232372816_2_alg».proof.Proof.LibERealSums

noncomputable section

namespace Cert.RefBridge

open Idealize.ShloMosaic Cert.LibERealSums

/-- The float word 0x3F800000 is 1. -/
theorem one_word : Ideal.ofBits .f32 0x3F800000#32 = 1 := by
  simp [Ideal.ofBits, Ideal.ieee, -EReal.coe_mul]; norm_num

/-- The float word 0xBF800000 is -1. -/
theorem neg_one_word : Ideal.ofBits .f32 0xBF800000#32 = ((-1 : ℝ) : EReal) := by
  simp [Ideal.ofBits, Ideal.ieee, -EReal.coe_mul]; norm_num

/-- The float word 0x00000000 is 0. -/
theorem zero_word : Ideal.ofBits .f32 0x00000000#32 = 0 := by
  simp [Ideal.ofBits, Ideal.ieee]

/-- The ternary image of any extended real is a real number. -/
theorem isFin_tern (v : EReal) : IsFin (Cert.Spec.tern v) := by
  unfold Cert.Spec.tern Scalar.select
  split_ifs
  · rw [one_word]; exact isFin_one
  · rw [neg_one_word]; exact isFin_coe _
  · rw [zero_word]; exact isFin_zero

/-- For real numbers v and q, v + (q - v) = q. -/
theorem add_sub_cancel_of_isFin {v q : EReal} (hv : IsFin v) (hq : IsFin q) : v + (q - v) = q := by
  obtain ⟨r, rfl⟩ := hv.exists_coe
  obtain ⟨s, rfl⟩ := hq.exists_coe
  rw [← EReal.coe_sub, ← EReal.coe_add, add_sub_cancel]

/-- The straight-through form of the ternary image, at a real weight, is the ternary image. -/
theorem ste_tern {v : EReal} (hv : v ≠ ⊤ ∧ v ≠ ⊥) : v + (Cert.Spec.tern v - v) = Cert.Spec.tern v :=
  add_sub_cancel_of_isFin ⟨hv.2, hv.1⟩ (isFin_tern v)

end Cert.RefBridge

end
-- ==== Proof.LibFiniteTest.lean ====
/-
  The finiteness test "|v| < +infinity", read on the extended reals.

  A precondition of the form "every entry of the array v satisfies |v| < +inf" compares, entry by entry, the absolute
  value max v (-v) with the float word 0x7F800000 spread over v's shape. That word is +infinity, and max v (-v) is
  +infinity at both infinities, so the test passes at an index exactly when the entry there is a real number.
  (`isFin_of_test` is the form to apply to one conjunct of such a precondition once the "all entries" reduction has been
  opened at an index.)
-/
import proofs.«150503_j31207232372816_2_alg».proof.Proof.LibERealSums
import Idealize.ShloMosaic.PureOps.Ideal
import Idealize.ShloMosaic.Lib.Pipeline.Value
import Idealize.ShloMosaic.Lib.ValueIdx

noncomputable section

namespace Cert.LibFiniteTest

open Idealize.ShloMosaic Idealize.ShloMosaic.ValueIdx Cert.LibERealSums

/-- The float word 0x7F800000 is +infinity. -/
theorem top_word : Ideal.ofBits .f32 0x7F800000#32 = ⊤ := by
  simp [Ideal.ofBits, Ideal.ieee]

/-- An extended real whose absolute value is below +infinity is a real number. -/
theorem isFin_of_abs_lt_top (v : EReal) (h : Ideal.cmp .olt (max v (-v)) ⊤ = 1#1) : IsFin v := by
  induction v using EReal.rec with
  | bot => exact absurd h (by simp [Ideal.cmp])
  | top => exact absurd h (by simp [Ideal.cmp])
  | coe r => exact isFin_coe r

/-- The rank-0 shape has one index. -/
instance subsingleton_scalar_idx : Subsingleton (⟨0, ![]⟩ : Shape).Idx := ⟨fun a b => funext fun d => d.elim0⟩

/-- Where the test "|v| < +inf" (the +infinity word spread over the array's shape) passes at an index, the entry there
    is a real number. -/
theorem isFin_of_test {S : Shape} (v : FVec Ideal S .f32)
    (hb : (⟨0, ![]⟩ : Shape).BroadcastsInDim S (![] : Fin 0 → Fin S.rank)) (i : S.Idx)
    (h : cmpf .olt (Host.absf v) (broadcastInDim S ![] hb (constant (F := Ideal) ⟨0, ![]⟩ .f32 0x7F800000#32)) i = 1#1) :
    IsFin (v i) := by
  rw [cmpf_apply, broadcastInDim_apply ![] hb _ i ix0 (fun a => a.elim0), constant_apply, top_word] at h
  exact isFin_of_abs_lt_top (v i) h

end Cert.LibFiniteTest

end
-- ==== Proof.RefFinite.lean ====
/-
  The finiteness precondition, read for the weight array.

  The precondition is the conjunction of three tests "every entry of the array has absolute value below +infinity",
  one per argument. Where it holds, the second test holds at every index of the weight array, and an extended real
  whose absolute value is below +infinity is a real number: neither infinity.
-/
import proofs.«150503_j31207232372816_2_alg».proof.Pre_finite_inputs
import proofs.«150503_j31207232372816_2_alg».proof.Proof.LibFiniteTest
import Idealize.ShloMosaic.Lib.ReduceAll

noncomputable section

namespace Cert.RefBridge

open Idealize.ShloMosaic Idealize.ShloMosaic.ValueIdx Cert.LibERealSums Cert.LibFiniteTest

/-- Under the finiteness precondition every entry of the weight array is a real number. -/
theorem weight_isFin (x : FVec Ideal Cert.Pre_finite_inputs.S8192x4096 .f32)
    (w : FVec Ideal Cert.Pre_finite_inputs.S16384x4096 .f32) (b : FVec Ideal Cert.Pre_finite_inputs.S16384 .f32)
    [hF : Cert.Pre_finite_inputs.Facts]
    (h : Cert.Pre_finite_inputs.fn (F := Ideal) x w b = fun _ => 1#1) (i : Cert.Pre_finite_inputs.S16384x4096.Idx) :
    IsFin (w i) := by
  have h0 := congrFun h ix0
  dsimp only [Cert.Pre_finite_inputs.fn] at h0
  have h1 := (IntOp.andi_eq_one.1 h0).1
  have h2 := (IntOp.andi_eq_one.1 h1).2
  exact isFin_of_test w hF.bcast_S_S16384x4096 i
    (Host.reduce_andi_all _ _ hF.reducesTo_S16384x4096_S_d0_1 hF.h_S_ ix0 h2 i)

/-- Under the finiteness precondition no entry of the weight array is an infinity. -/
theorem weight_finite (x : FVec Ideal Cert.Pre_finite_inputs.S8192x4096 .f32)
    (w : FVec Ideal Cert.Pre_finite_inputs.S16384x4096 .f32) (b : FVec Ideal Cert.Pre_finite_inputs.S16384 .f32)
    [Cert.Pre_finite_inputs.Facts]
    (h : Cert.Pre_finite_inputs.fn (F := Ideal) x w b = fun _ => 1#1) :
    ∀ i, w i ≠ ⊤ ∧ w i ≠ ⊥ :=
  fun i => ⟨(weight_isFin x w b h i).2, (weight_isFin x w b h i).1⟩

end Cert.RefBridge

end
-- ==== Proof.RefValue.lean ====
/-
  The reference's value: at the extended reals, with a weight array of real numbers, the reference's result is
  the ternary linear layer of the shared specification, and the reference runs leaving its arguments unchanged.

  The reference forms q, the ternary image of the weight array entry by entry, then w + (q - w), which at a real
  weight entry is q; then the contraction of x with that array over the feature axis, plus the bias spread over
  the rows.
-/
import proofs.«150503_j31207232372816_2_alg».proof.Defs
import proofs.«150503_j31207232372816_2_alg».proof.Proof.Spec
import proofs.«150503_j31207232372816_2_alg».proof.Proof.RefTern
import proofs.«150503_j31207232372816_2_alg».proof.Proof.RefFinite
import proofs.«150503_j31207232372816_2_alg».proof.Proof.Gen.ReferenceIdeal
import proofs.«150503_j31207232372816_2_alg».proof.Proof.Gen.ReferenceIdeal.Run
import proofs.«150503_j31207232372816_2_alg».proof.Proof.Gen.ReferenceIdeal.Read
import proofs.«150503_j31207232372816_2_alg».proof.Proof.Gen.Pre_finite_inputs

noncomputable section

namespace Cert.RefBridge

open Idealize.ShloMosaic Idealize.SL.Sem Idealize.ShloMosaic.ValueIdx Cert.ReferenceIdeal

/-- At a weight array of real numbers, the array the reference contracts with is the ternary image, entry by entry. -/
theorem weights_tern [Cert.ReferenceIdeal.Facts] (x1 : (⟨S16384x4096, .f32⟩ : BufTy).Contents (Elt Ideal))
    (hw : ∀ i, x1 i ≠ ⊤ ∧ x1 i ≠ ⊥) (j : S16384x4096.Idx) :
    Read.val_main_v8 (F := Ideal) x1 j = Cert.Spec.tern (x1 j) := by
  rw [Read.val_main_v8_apply, Read.val_main_v7_apply, Read.val_main_v6_apply, Read.val_main_v5_apply,
    Read.val_main_v1_apply, Read.val_main_v0_apply, Read.val_main_cst_apply, Read.val_main_call1_v0_apply,
    Read.val_main_cst_3_apply, Read.val_main_v4_apply, Read.val_main_v3_apply, Read.val_main_v2_apply,
    Read.val_main_cst_0_apply, Read.val_main_call0_v0_apply, Read.val_main_cst_1_apply,
    Read.val_main_call0_v1_apply, Read.val_main_cst_2_apply]
  exact ste_tern (hw j)

/-- At a weight array of real numbers, the reference's result is the ternary linear layer. -/
theorem ref_eq_G [Cert.ReferenceIdeal.Facts] (x0 : (⟨S8192x4096, .f32⟩ : BufTy).Contents (Elt Ideal))
    (x1 : (⟨S16384x4096, .f32⟩ : BufTy).Contents (Elt Ideal)) (x2 : (⟨S16384, .f32⟩ : BufTy).Contents (Elt Ideal))
    (hw : ∀ i, x1 i ≠ ⊤ ∧ x1 i ≠ ⊥) :
    Read.val_main_v12 (F := Ideal) x0 x1 x2 = Cert.Spec.G x0 x1 x2 := by
  funext i
  obtain ⟨p, e, rfl⟩ : ∃ (p : Fin 8192) (e : Fin 16384), i = ix2 p e := ⟨i 0, i 1, eq_ix2 i⟩
  have hl : ∀ k : Fin 4096, Read.lidx_main_v9 (ix2 p e) k = ix2 p k := fun k =>
    funext fun a => Fin.ext (by match a with | ⟨0, _⟩ => rfl | ⟨1, _⟩ => rfl)
  have hr : ∀ k : Fin 4096, Read.ridx_main_v9 (ix2 p e) k = ix2 e k := fun k =>
    funext fun a => Fin.ext (by match a with | ⟨0, _⟩ => rfl | ⟨1, _⟩ => rfl)
  have hb : Read.idx_main_v10 (Read.idx_main_v11 (ix2 p e)) = ix1 e :=
    funext fun a => Fin.ext (by match a with | ⟨0, _⟩ => rfl)
  rw [Cert.Spec.G_apply, Read.val_main_v12_apply, Read.val_main_v9_apply, Read.val_main_v11_apply,
    Read.val_main_v10_apply, hb]
  simp only [hl, hr, weights_tern x1 hw]
  rfl

/-- The reference runs; with a weight array of real numbers its result is the ternary linear layer of its
    arguments, and its arguments end unchanged. -/
theorem ref_run [Cert.ReferenceIdeal.Facts]
    (m' : (ℓ : Loc Cert.ReferenceIdeal.nD Cert.ReferenceIdeal.τ Cert.ReferenceIdeal.sig) → Buf (Elt Ideal) ℓ)
    (g' : Dev Cert.ReferenceIdeal.nD → PrngReg)
    (hw : ∀ (c : Dev Cert.ReferenceIdeal.nD) i,
      m' ((c.tc : Thread Cert.ReferenceIdeal.nD Cert.ReferenceIdeal.τ).loc Cert.ReferenceIdeal.main_arg1) i ≠ (⊤ : EReal)
      ∧ m' ((c.tc : Thread Cert.ReferenceIdeal.nD Cert.ReferenceIdeal.τ).loc Cert.ReferenceIdeal.main_arg1) i ≠ (⊥ : EReal)) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v12)
          = Cert.Spec.G (m' ((c.tc : Thread Cert.ReferenceIdeal.nD Cert.ReferenceIdeal.τ).loc Cert.ReferenceIdeal.main_arg0))
              (m' ((c.tc : Thread Cert.ReferenceIdeal.nD Cert.ReferenceIdeal.τ).loc Cert.ReferenceIdeal.main_arg1))
              (m' ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)) :=
  (θ_run (Cert.ReferenceIdeal.defs (F := Ideal)) _ _).mono
    (fun _ h c => ⟨by rw [(h c).1, Read.val_main_v12_eq]; exact ref_eq_G _ _ _ (hw c), (h c).2⟩)
    (Cert.ReferenceIdeal.Value.run (F := Ideal) m' g')

/-- The reference runs and leaves its arguments unchanged: its run with the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

end Cert.RefBridge

end
-- ==== Proof.lean ====
/-
  A linear layer with ternary weights: out = x · tern(W)ᵀ + b, where tern sends a weight to 1, −1 or 0 by two
  comparisons against ±0.3.

  The kernel program quantises the weight matrix once in a first launch, then multiplies in a second launch that
  sweeps the 4096 input features in four chunks of 1024, keeping a running sum per output block and adding the bias
  after the last chunk.  The reference forms w + (tern(w) − w) entry by entry, contracts it with x and adds the bias.

  On the extended reals the two agree entry by entry: w + (tern(w) − w) = tern(w) wherever w is a real number —
  this is where the precondition (every input finite) is used, for the weight matrix only, tern(w) being always
  one of three real values —, a product contracted by the matrix unit into a zero accumulator and the host's
  contraction are the same sum, and the four chunk sums are the one sum over all features by associativity and
  commutativity of addition.  Every change of float format is the identity there.

  The three programs each run to the end without a fault and leave their argument arrays as they were; for the two
  kernel programs that is the run of their two launches and the host lines between them, the same argument at the
  word level and on the extended reals.  No operation was rewritten by the idealisation, so nothing is owed for it.
-/
import proofs.«150503_j31207232372816_2_alg».proof.Defs
import proofs.«150503_j31207232372816_2_alg».proof.Proof.Gen.Kernel
import proofs.«150503_j31207232372816_2_alg».proof.Proof.Gen.KernelIdeal
import proofs.«150503_j31207232372816_2_alg».proof.Proof.Gen.ReferenceIdeal
import proofs.«150503_j31207232372816_2_alg».proof.Proof.Gen.Pre_finite_inputs
import proofs.«150503_j31207232372816_2_alg».proof.Proof.KRun
import proofs.«150503_j31207232372816_2_alg».proof.Proof.IValue
import proofs.«150503_j31207232372816_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := Cert.RefBridge.frame_ri

/-- Both idealised programs end with the specification's function of their (agreeing) arguments. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Hand.run_spec m ρ, ?_⟩
  have hw : ∀ (c : Dev Cert.ReferenceIdeal.nD) i,
      m' ((c.tc : Thread Cert.ReferenceIdeal.nD Cert.ReferenceIdeal.τ).loc Cert.ReferenceIdeal.main_arg1) i ≠ (⊤ : EReal)
      ∧ m' ((c.tc : Thread Cert.ReferenceIdeal.nD Cert.ReferenceIdeal.τ).loc Cert.ReferenceIdeal.main_arg1) i ≠ (⊥ : EReal) := by
    intro c
    rw [(hagree c).2.1]
    exact Cert.RefBridge.weight_finite _ _ _ (hpre c)
  refine (θ_run (Cert.ReferenceIdeal.defs (F := Ideal)) _ _).mono (fun _ h c => ?_) (Cert.RefBridge.ref_run m' ρ' hw)
  obtain ⟨h0, h1, h2, h3⟩ := h c
  refine ⟨?_, h1, h2, h3⟩
  rw [h0, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
